-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x64 : Shape := ⟨3, ![16, 16384, 64]⟩
abbrev S64 : Shape := ⟨1, ![64]⟩
abbrev S64x64 : Shape := ⟨2, ![64, 64]⟩
abbrev S_ : Shape := ⟨0, ![]⟩

class Facts : Prop where
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S16x16384x64 .f32) (main_arg1 : FVec F S64 .f32) (main_arg2 : FVec F S64x64 .f32) (main_arg3 : FVec F S64x64 .f32) : IVec S_ 1 :=
  let main_v0 : FVec F S16x16384x64 .f32 := Host.absf main_arg0
  let main_cst : FVec F S_ .f32 := constant S_ .f32 0x7F800000#32
  let main_v1 : FVec F S16x16384x64 .f32 := broadcastInDim S16x16384x64 ![] bcast_S_S16x16384x64 main_cst
  let main_v2 : IVec S16x16384x64 1 := cmpf .olt main_v0 main_v1
  let main_c : IVec S_ 1 := constantI S_ 1 1#1
  let main_v3 : IVec S_ 1 := (fun x v => Host.reduce IntOp.andi x v reducesTo_S16x16384x64_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S16x16384x64 : Shape := ⟨3, ![16, 16384, 64]⟩
abbrev S64 : Shape := ⟨1, ![64]⟩
abbrev S64x64 : Shape := ⟨2, ![64, 64]⟩
abbrev S16x8256 : Shape := ⟨2, ![16, 8256]⟩
abbrev S8x1024x64 : Shape := ⟨3, ![8, 1024, 64]⟩
abbrev S8x8256 : Shape := ⟨2, ![8, 8256]⟩
abbrev S8x64 : Shape := ⟨2, ![8, 64]⟩
abbrev S8x64x64 : Shape := ⟨3, ![8, 64, 64]⟩
abbrev S8192x64 : Shape := ⟨2, ![8192, 64]⟩
abbrev S1x1x64 : Shape := ⟨3, ![1, 1, 64]⟩
abbrev S8x1024 : Shape := ⟨2, ![8, 1024]⟩
abbrev S8x1024x1 : Shape := ⟨3, ![8, 1024, 1]⟩
abbrev S8x1x64 : Shape := ⟨3, ![8, 1, 64]⟩
abbrev S1x64 : Shape := ⟨2, ![1, 64]⟩
abbrev S8x64x1 : Shape := ⟨3, ![8, 64, 1]⟩
abbrev S1x64x64 : Shape := ⟨3, ![1, 64, 64]⟩
abbrev S8x4096 : Shape := ⟨2, ![8, 4096]⟩

abbrev nBuf : Space → Nat
  | .hbm => 5
  | .vmem => 10
  | .smem => 0
  | _ => 0

abbrev bufTy : (tb : Table) → Fin (tcTables nBuf tb) → BufTy
  | .hbm, ⟨0, _⟩ => ⟨S16x16384x64, .f32⟩
  | .hbm, ⟨1, _⟩ => ⟨S64, .f32⟩
  | .hbm, ⟨2, _⟩ => ⟨S64x64, .f32⟩
  | .hbm, ⟨3, _⟩ => ⟨S64x64, .f32⟩
  | .hbm, ⟨4, _⟩ => ⟨S16x8256, .f32⟩
  | .local _ .vmem, ⟨0, _⟩ => ⟨S8x1024x64, .f32⟩
  | .local _ .vmem, ⟨1, _⟩ => ⟨S8x1024x64, .f32⟩
  | .local _ .vmem, ⟨2, _⟩ => ⟨S64, .f32⟩
  | .local _ .vmem, ⟨3, _⟩ => ⟨S64x64, .f32⟩
  | .local _ .vmem, ⟨4, _⟩ => ⟨S64x64, .f32⟩
  | .local _ .vmem, ⟨5, _⟩ => ⟨S8x8256, .f32⟩
  | .local _ .vmem, ⟨6, _⟩ => ⟨S8x8256, .f32⟩
  | .local _ .vmem, ⟨7, _⟩ => ⟨S8x64, .f32⟩
  | .local _ .vmem, ⟨8, _⟩ => ⟨S8x64x64, .f32⟩
  | .local _ .vmem, ⟨9, _⟩ => ⟨S8x64x64, .f32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v77 : BitVec 1 := Scalar.cmpi .eq arg1 c15_i32
  let v78 : BitVec 32 := Scalar.extui v77
  let c0_i32_37 : BitVec 32 := 0#32
  let v79 : BitVec 1 := Scalar.cmpi .ne v78 c0_i32_37
  v79

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x8256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S8x1024x64_S8x1024x64_0_0_0 : ∀ a, (![0, 0, 0] : Fin 3 → Nat) a + S8x1024x64.size a ≤ S8x1024x64.size a
  h_S8x1024x64 : 0 < S8x1024x64.numel
  inb_S64x64_S64x64_0_0 : ∀ a, (![0, 0] : Fin 2 → Nat) a + S64x64.size a ≤ S64x64.size a
  h_S64x64 : 0 < S64x64.numel
  reduces_S64x64_S64 : S64x64.Reduces [1] S64
  bitsLt_bf16_f32 : FTy.bits .bf16 < FTy.bits .f32
  shapeCasts_S8x1024x64_S8192x64 : S8x1024x64.ShapeCasts S8192x64
  transposes_S64x64_p1_0_S64x64 : S64x64.Transposes [1, 0] S64x64
  shapeCasts_S8192x64_S8x1024x64 : S8192x64.ShapeCasts S8x1024x64
  shapeCasts_S64_S1x1x64 : S64.ShapeCasts S1x1x64
  broadcasts_S1x1x64_S8x1024x64 : S1x1x64.Broadcasts S8x1024x64
  inb_S64_S64_0 : ∀ a, (![0] : Fin 1 → Nat) a + S64.size a ≤ S64.size a
  h_S64 : 0 < S64.numel
  reduces_S8x1024x64_S8x1024 : S8x1024x64.Reduces [2] S8x1024
  shapeCasts_S8x1024_S8x1024x1 : S8x1024.ShapeCasts S8x1024x1
  broadcasts_S8x1024x1_S8x1024x64 : S8x1024x1.Broadcasts S8x1024x64
  reduces_S8x1024x64_S8x64 : S8x1024x64.Reduces [1] S8x64
  shapeCasts_S8x64_S8x1x64 : S8x64.ShapeCasts S8x1x64
  shapeCasts_S8x1x64_S8x64 : S8x1x64.ShapeCasts S8x64
  shapeCasts_S64_S1x64 : S64.ShapeCasts S1x64
  broadcasts_S1x64_S8x64 : S1x64.Broadcasts S8x64
  shapeCasts_S8x64_S8x64x1 : S8x64.ShapeCasts S8x64x1
  shapeCasts_S64x64_S1x64x64 : S64x64.ShapeCasts S1x64x64
  broadcasts_S8x64x1_S8x64x64 : S8x64x1.Broadcasts S8x64x64
  broadcasts_S1x64x64_S8x64x64 : S1x64x64.Broadcasts S8x64x64
  shapeCasts_S8x64x64_S8x4096 : S8x64x64.ShapeCasts S8x4096
  concatenates_S8x64_S8x4096_S8x4096_S8x8256_d1 : Shape.Concatenates [S8x64, S8x4096, S8x4096] S8x8256 1
  inb_S8x8256_S8x8256_0_0 : ∀ a, (![0, 0] : Fin 2 → Nat) a + S8x8256.size a ≤ S8x8256.size a
  h_S8x8256 : 0 < S8x8256.numel
  dot_S8192x64_S64x64_S8192x64_1_0_0_1_n_n_wf : DotDims.WF S8192x64 S64x64 S8192x64 [1] [0] [0] [1] [] []
  dot_S8x1024x64_S8x1024x64_S8x64x64_1_1_2_2_0_0_wf : DotDims.WF S8x1024x64 S8x1024x64 S8x64x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S16x16384x64.size a
  hwx0_0 : ∀ i : grid0.Coords, EltTy.bits .f32 = 32 ∨ (Rect.block (s := S16x16384x64) S8x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x8256.size a ≤ S16x8256.size a
  hwx0_4 : ∀ i : grid0.Coords, EltTy.bits .f32 = 32 ∨ (Rect.block (s := S16x8256) S8x8256.size (cc0_transform_4 i) (hinb0_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8x1024x64_S8x1024x64_S8x64x64_1_1_2_2_0_0 : DotDims S8x1024x64 S8x1024x64 S8x64x64 where
  lhsContracting := [1]
  rhsContracting := [1]
  lhsNonContracting := [2]
  rhsNonContracting := [2]
  lhsBatch := [0]
  rhsBatch := [0]
  wf := dot_S8x1024x64_S8x1024x64_S8x64x64_1_1_2_2_0_0_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x8256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x16384x64 : Shape := ⟨3, ![16, 16384, 64]⟩
abbrev S64 : Shape := ⟨1, ![64]⟩
abbrev S64x64 : Shape := ⟨2, ![64, 64]⟩
abbrev S_ : Shape := ⟨0, ![]⟩
abbrev S1x1x64 : Shape := ⟨3, ![1, 1, 64]⟩
abbrev S16x16384 : Shape := ⟨2, ![16, 16384]⟩
abbrev S16x16384x1 : Shape := ⟨3, ![16, 16384, 1]⟩
abbrev S16x64 : Shape := ⟨2, ![16, 64]⟩
abbrev S16x64x64 : Shape := ⟨3, ![16, 64, 64]⟩
abbrev S1x64 : Shape := ⟨2, ![1, 64]⟩
abbrev S16x64x1 : Shape := ⟨3, ![16, 64, 1]⟩
abbrev S1x64x64 : Shape := ⟨3, ![1, 64, 64]⟩
abbrev S16x4096 : Shape := ⟨2, ![16, 4096]⟩
abbrev S16x8256 : Shape := ⟨2, ![16, 8256]⟩

abbrev nBuf : Space → Nat
  | .hbm => 96
  | .vmem => 0
  | .smem => 0
  | _ => 0

abbrev bufTy : (tb : Table) → Fin (tcTables nBuf tb) → BufTy
  | .hbm, ⟨0, _⟩ => ⟨S16x16384x64, .f32⟩
  | .hbm, ⟨1, _⟩ => ⟨S64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S16x16384x64, .f32⟩
  | .hbm, ⟨8, _⟩ => ⟨S16x16384x64, .f32⟩
  | .hbm, ⟨9, _⟩ => ⟨S64x64, .f32⟩
  | .hbm, ⟨10, _⟩ => ⟨S16x16384x64, .f32⟩
  | .hbm, ⟨11, _⟩ => ⟨S_, .f32⟩
  | .hbm, ⟨12, _⟩ => ⟨S16x16384x64, .f32⟩
  | .hbm, ⟨13, _⟩ => ⟨S16x16384x64, .f32⟩
  | .hbm, ⟨14, _⟩ => ⟨S16x16384x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64, .f32⟩
  | .hbm, ⟨19, _⟩ => ⟨S1x1x64, .f32⟩
  | .hbm, ⟨20, _⟩ => ⟨S16x16384x64, .f32⟩
  | .hbm, ⟨21, _⟩ => ⟨S16x16384x64, .f32⟩
  | .hbm, ⟨22, _⟩ => ⟨S64x64, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S1x1x64, .f32⟩
  | .hbm, ⟨29, _⟩ => ⟨S16x16384x64, .f32⟩
  | .hbm, ⟨30, _⟩ => ⟨S16x16384x64, .f32⟩
  | .hbm, ⟨31, _⟩ => ⟨S_, .f32⟩
  | .hbm, ⟨32, _⟩ => ⟨S16x16384x64, .f32⟩
  | .hbm, ⟨33, _⟩ => ⟨S16x16384x64, .f32⟩
  | .hbm, ⟨34, _⟩ => ⟨S64, .f32⟩
  | .hbm, ⟨35, _⟩ => ⟨S1x1x64, .f32⟩
  | .hbm, ⟨36, _⟩ => ⟨S16x16384x64, .f32⟩
  | .hbm, ⟨37, _⟩ => ⟨S16x16384x64, .f32⟩
  | .hbm, ⟨38, _⟩ => ⟨S_, .f32⟩
  | .hbm, ⟨39, _⟩ => ⟨S16x16384, .f32⟩
  | .hbm, ⟨40, _⟩ => ⟨S_, .f32⟩
  | .hbm, ⟨41, _⟩ => ⟨S16x16384, .f32⟩
  | .hbm, ⟨42, _⟩ => ⟨S16x16384, .f32⟩
  | .hbm, ⟨43, _⟩ => ⟨S16x16384x1, .f32⟩
  | .hbm, ⟨44, _⟩ => ⟨S16x16384x64, .f32⟩
  | .hbm, ⟨45, _⟩ => ⟨S16x16384x64, .f32⟩
  | .hbm, ⟨46, _⟩ => ⟨S16x16384x64, .f32⟩
  | .hbm, ⟨47, _⟩ => ⟨S_, .f32⟩
  | .hbm, ⟨48, _⟩ => ⟨S16x16384, .f32⟩
  | .hbm, ⟨49, _⟩ => ⟨S16x16384x1, .f32⟩
  | .hbm, ⟨50, _⟩ => ⟨S16x16384x64, .f32⟩
  | .hbm, ⟨51, _⟩ => ⟨S16x16384x64, .f32⟩
  | .hbm, ⟨52, _⟩ => ⟨S_, .f32⟩
  | .hbm, ⟨53, _⟩ => ⟨S16x64, .f32⟩
  | .hbm, ⟨54, _⟩ => ⟨S_, .f32⟩
  | .hbm, ⟨55, _⟩ => ⟨S16x64, .f32⟩
  | .hbm, ⟨56, _⟩ => ⟨S16x64, .f32⟩
  | .hbm, ⟨57, _⟩ => ⟨S16x64x64, .f32⟩
  | .hbm, ⟨58, _⟩ => ⟨S_, .f32⟩
  | .hbm, ⟨59, _⟩ => ⟨S16x64x64, .f32⟩
  | .hbm, ⟨60, _⟩ => ⟨S16x64x64, .f32⟩
  | .hbm, ⟨61, _⟩ => ⟨S16x64x64, .f32⟩
  | .hbm, ⟨62, _⟩ => ⟨S_, .f32⟩
  | .hbm, ⟨63, _⟩ => ⟨S16x64x64, .f32⟩
  | .hbm, ⟨64, _⟩ => ⟨S16x64x64, .f32⟩
  | .hbm, ⟨65, _⟩ => ⟨S1x64, .f32⟩
  | .hbm, ⟨66, _⟩ => ⟨S16x64, .f32⟩
  | .hbm, ⟨67, _⟩ => ⟨S16x64, .f32⟩
  | .hbm, ⟨68, _⟩ => ⟨S16x64x1, .f32⟩
  | .hbm, ⟨69, _⟩ => ⟨S1x64x64, .f32⟩
  | .hbm, ⟨70, _⟩ => ⟨S16x64x64, .f32⟩
  | .hbm, ⟨71, _⟩ => ⟨S16x64x64, .f32⟩
  | .hbm, ⟨72, _⟩ => ⟨S16x64x64, .f32⟩
  | .hbm, ⟨73, _⟩ => ⟨S16x64x64, .f32⟩
  | .hbm, ⟨74, _⟩ => ⟨S16x64x64, .f32⟩
  | .hbm, ⟨75, _⟩ => ⟨S64x64, .f32⟩
  | .hbm, ⟨76, _⟩ => ⟨S1x64x64, .f32⟩
  | .hbm, ⟨77, _⟩ => ⟨S16x64x64, .f32⟩
  | .hbm, ⟨78, _⟩ => ⟨S16x64x64, .f32⟩
  | .hbm, ⟨79, _⟩ => ⟨S16x64x64, .f32⟩
  | .hbm, ⟨80, _⟩ => ⟨S16x64x64, .f32⟩
  | .hbm, ⟨81, _⟩ => ⟨S1x64x64, .f32⟩
  | .hbm, ⟨82, _⟩ => ⟨S16x64x64, .f32⟩
  | .hbm, ⟨83, _⟩ => ⟨S16x64x64, .f32⟩
  | .hbm, ⟨84, _⟩ => ⟨S16x64x64, .f32⟩
  | .hbm, ⟨85, _⟩ => ⟨S16x64x64, .f32⟩
  | .hbm, ⟨86, _⟩ => ⟨S_, .f32⟩
  | .hbm, ⟨87, _⟩ => ⟨S16x64x64, .f32⟩
  | .hbm, ⟨88, _⟩ => ⟨S16x64x64, .f32⟩
  | .hbm, ⟨89, _⟩ => ⟨S1x64x64, .f32⟩
  | .hbm, ⟨90, _⟩ => ⟨S16x64x64, .f32⟩
  | .hbm, ⟨91, _⟩ => ⟨S16x64x64, .f32⟩
  | .hbm, ⟨92, _⟩ => ⟨S16x64x64, .f32⟩
  | .hbm, ⟨93, _⟩ => ⟨S16x4096, .f32⟩
  | .hbm, ⟨94, _⟩ => ⟨S16x4096, .f32⟩
  | .hbm, ⟨95, _⟩ => ⟨S16x8256, .f32⟩
  | _, _ => ⟨S16x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S_S16x16384x64 : S_.BroadcastsInDim S16x16384x64 (![] : Fin 0 → Fin S16x16384x64.rank)
  reducesTo_S64x64_S64_d1 : S64x64.ReducesTo [1] S64
  h_S_ : 0 < S_.numel
  bcast_S64_S1x1x64_2 : S64.BroadcastsInDim S1x1x64 (![2] : Fin 1 → Fin S1x1x64.rank)
  bcast_S1x1x64_S16x16384x64_0_1_2 : S1x1x64.BroadcastsInDim S16x16384x64 (![0, 1, 2] : Fin 3 → Fin S16x16384x64.rank)
  bcast_S_S64 : S_.BroadcastsInDim S64 (![] : Fin 0 → Fin S64.rank)
  reducesTo_S16x16384x64_S16x16384_d2 : S16x16384x64.ReducesTo [2] S16x16384
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x64_0_1_2 : S16x16384x1.BroadcastsInDim S16x16384x64 (![0, 1, 2] : Fin 3 → Fin S16x16384x64.rank)
  reducesTo_S16x16384x64_S16x64_d1 : S16x16384x64.ReducesTo [1] S16x64
  bcast_S_S16x64 : S_.BroadcastsInDim S16x64 (![] : Fin 0 → Fin S16x64.rank)
  bcast_S_S16x64x64 : S_.BroadcastsInDim S16x64x64 (![] : Fin 0 → Fin S16x64x64.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S16x64_S16x64x1_0_1 : S16x64.BroadcastsInDim S16x64x1 (![0, 1] : Fin 2 → Fin S16x64x1.rank)
  bcast_S64x64_S1x64x64_1_2 : S64x64.BroadcastsInDim S1x64x64 (![1, 2] : Fin 2 → Fin S1x64x64.rank)
  bcast_S16x64x1_S16x64x64_0_1_2 : S16x64x1.BroadcastsInDim S16x64x64 (![0, 1, 2] : Fin 3 → Fin S16x64x64.rank)
  bcast_S1x64x64_S16x64x64_0_1_2 : S1x64x64.BroadcastsInDim S16x64x64 (![0, 1, 2] : Fin 3 → Fin S16x64x64.rank)
  shapeCasts_S16x64x64_S16x4096 : S16x64x64.ShapeCasts S16x4096
  concatenates_S16x64_S16x4096_S16x4096_S16x8256_d1 : Shape.Concatenates [S16x64, S16x4096, S16x4096] S16x8256 1
  dot_S16x16384x64_S64x64_S16x16384x64_2_1_01_0_n_n_wf : DotDims.WF S16x16384x64 S64x64 S16x16384x64 [2] [1] [0, 1] [0] [] []
  dot_S16x16384x64_S16x16384x64_S16x64x64_1_1_2_2_0_0_wf : DotDims.WF S16x16384x64 S16x16384x64 S16x64x64 [1] [1] [2] [2] [0] [0]

variable [Facts₀]

def dot_S16x16384x64_S64x64_S16x16384x64_2_1_01_0_n_n : DotDims S16x16384x64 S64x64 S16x16384x64 where
  lhsContracting := [2]
  rhsContracting := [1]
  lhsNonContracting := [0, 1]
  rhsNonContracting := [0]
  lhsBatch := []
  rhsBatch := []
  wf := dot_S16x16384x64_S64x64_S16x16384x64_2_1_01_0_n_n_wf
def dot_S16x16384x64_S16x16384x64_S16x64x64_1_1_2_2_0_0 : DotDims S16x16384x64 S16x16384x64 S16x64x64 where
  lhsContracting := [1]
  rhsContracting := [1]
  lhsNonContracting := [2]
  rhsNonContracting := [2]
  lhsBatch := [0]
  rhsBatch := [0]
  wf := dot_S16x16384x64_S16x16384x64_S16x64x64_1_1_2_2_0_0_wf

class Facts : Prop extends Facts₀ where

variable [Facts]
-- ==== Proof.KernelPieces.lean ====
/-
  What the kernel body leaves behind at one grid point, as values.

  The grid is (batch block, tile of 1024 rows); the body keeps three accumulators in scratch memory across the 16
  tiles of a batch block. At a block's first tile it zeroes them first, at every tile it adds the tile's
  contribution, and at the last tile it also computes the output block from the accumulators it has just updated.
  The generated frame records, per control case, the list of stores the body's run performed into each buffer;
  each lemma here reads such a list back as ONE value: every store is of the whole buffer (offsets all zero), so
  the last store's payload is the contents, and a load of a whole buffer is its contents. The payloads themselves
  (`k0_payN`) are left closed: this module only says WHICH payload of WHICH operands each buffer ends holding.
-/
import proofs.«151066_j6837587935988_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S8x1024x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S8x8256 .f32) (harg6 : arg6.IsWhole) (arg7 : Memref sig .tc .vmem S8x64 .f32) (harg7 : arg7.IsWhole) (arg8 : Memref sig .tc .vmem S8x64x64 .f32) (harg8 : arg8.IsWhole) (arg9 : Memref sig .tc .vmem S8x64x64 .f32) (harg9 : arg9.IsWhole)
  (x0 : Vec F S8x1024x64 .f32) (x1 : Vec F S64 .f32) (x2 : Vec F S64x64 .f32) (x3 : Vec F S64x64 .f32) (xs0 : Vec F S8x64 .f32) (xs1 : Vec F S8x64x64 .f32) (xs2 : Vec F S8x64x64 .f32)

/-- The first tile of a batch block (the grid's second coordinate is 0): the body stores zeros into scratch `arg7` (the running sum of the responsibilities),
    reads them back and adds the tile's contribution, so it leaves the tile's update applied to the zero block. -/
theorem sout_A_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = k0_pay17 (k0_pay14 x0 x3 x2) x1 k0_pay9 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x64) hz2]
  simp only [View.readCov_unit_zero (S := S8x64) _ hz2, View.readCov_unit_zero (S := S8x64x64) _ hz3, View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- The first tile of a batch block (the grid's second coordinate is 0): the body stores zeros into scratch `arg8` (the running sum of responsibility × feature),
    reads them back and adds the tile's contribution, so it leaves the tile's update applied to the zero block. -/
theorem sout_A_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = k0_pay18 (k0_pay12 x0) (k0_pay14 x0 x3 x2) x1 k0_pay10 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x64x64) hz3]
  simp only [View.readCov_unit_zero (S := S8x64) _ hz2, View.readCov_unit_zero (S := S8x64x64) _ hz3, View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- The first tile of a batch block (the grid's second coordinate is 0): the body stores zeros into scratch `arg9` (the running sum of responsibility × squared feature),
    reads them back and adds the tile's contribution, so it leaves the tile's update applied to the zero block. -/
theorem sout_A_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = k0_pay1 (k0_pay19 (k0_pay13 x0) (k0_pay14 x0 x3 x2) x1 k0_pay11) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x64x64) hz3]
  simp only [View.readCov_unit_zero (S := S8x64) _ hz2, View.readCov_unit_zero (S := S8x64x64) _ hz3, View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- A middle tile: the body leaves in scratch `arg7` (the running sum of the responsibilities) the tile's update applied to what the tile before left. -/
theorem sout_B_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = k0_pay17 (k0_pay14 x0 x3 x2) x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- A middle tile: the body leaves in scratch `arg8` (the running sum of responsibility × feature) the tile's update applied to what the tile before left. -/
theorem sout_B_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = k0_pay18 (k0_pay12 x0) (k0_pay14 x0 x3 x2) x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- A middle tile: the body leaves in scratch `arg9` (the running sum of responsibility × squared feature) the tile's update applied to what the tile before left. -/
theorem sout_B_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 x3 xs0 xs1 xs2 = k0_pay1 (k0_pay19 (k0_pay13 x0) (k0_pay14 x0 x3 x2) x1 xs2) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- The last tile of a batch block: the body leaves in scratch `arg7` (the running sum of the responsibilities) the tile's update applied to what the tile before left. -/
theorem sout_C_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = k0_pay17 (k0_pay14 x0 x3 x2) x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- The last tile of a batch block: the body leaves in scratch `arg8` (the running sum of responsibility × feature) the tile's update applied to what the tile before left. -/
theorem sout_C_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = k0_pay18 (k0_pay12 x0) (k0_pay14 x0 x3 x2) x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- The last tile of a batch block: the body leaves in scratch `arg9` (the running sum of responsibility × squared feature) the tile's update applied to what the tile before left. -/
theorem sout_C_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 x3 xs0 xs1 xs2 = k0_pay1 (k0_pay19 (k0_pay13 x0) (k0_pay14 x0 x3 x2) x1 xs2) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

/-- The last tile of a batch block also stores the output block: the three statistics computed from the three scratch
    accumulators AS THIS TILE HAS JUST UPDATED THEM (each is read back after its store), concatenated along the row. -/
theorem out_C_4 (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2
      = k0_pay2 (k0_pay5 (k0_pay17 (k0_pay14 x0 x3 x2) x1 xs0) x1)
          (k0_pay7 (k0_pay17 (k0_pay14 x0 x3 x2) x1 xs0) (k0_pay18 (k0_pay12 x0) (k0_pay14 x0 x3 x2) x1 xs1) x2)
          (k0_pay8 (k0_pay17 (k0_pay14 x0 x3 x2) x1 xs0) (k0_pay18 (k0_pay12 x0) (k0_pay14 x0 x3 x2) x1 xs1) (k0_pay1 (k0_pay19 (k0_pay13 x0) (k0_pay14 x0 x3 x2) x1 xs2)) x2 x3) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readCov_unit_zero (S := S8x64) _ hz2, View.readCov_unit_zero (S := S8x64x64) _ hz3, View.readAt_eq_ld, harg2.read_unread, harg3.read_unread, harg4.read_unread, harg5.read_unread, harg7.read_unread, harg8.read_unread, harg9.read_unread, View.ld_unit_zero (S := S8x1024x64) hz3, View.ld_unit_zero (S := S64) hz1, View.ld_unit_zero (S := S64x64) hz2, View.ld_unit_zero (S := S8x64) hz2, View.ld_unit_zero (S := S8x64x64) hz3]

end Cert.KernelIdeal.Pieces

end
-- ==== Proof.KernelBlocks.lean ====
/-
  Where the windows' blocks sit in their arrays.

  The grid has 2 · 16 points; point `t` is batch block `t / 16`, tile `t % 16`. The data window's block at `t` is
  rows `8·(t/16) … 8·(t/16)+7` of the batch axis and rows `1024·(t%16) … 1024·(t%16)+1023` of the row axis; the three
  parameter windows are the whole parameter arrays at every point; the output window's block at `t` is rows
  `8·(t/16) … 8·(t/16)+7` of the result, all 8256 columns, and it is written back at the last tile of each batch
  block only. The index maps are decided once over the 32 points; everything else is arithmetic on coordinates.
-/
import proofs.«151066_j6837587935988_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided over the grid. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0 :=
  (by decide +kernel : ∀ t : Fin grid0.N, _)

theorem N_eq : cfg0.N = 32 := N_0

/-- The data block at point `t`, entry (b, r, d), is the data array at (8·(t/16) + b, 1024·(t%16) + r, d). -/
theorem iblk0_apply (c : Dev nD) (t : Fin cfg0.N) (b : Fin 8) (r : Fin 1024) (d : Fin 64) :
    (iblk m c 0 t : Vec F S8x1024x64 .f32) (ix3 b r d)
      = m ((c : Thread nD τ).loc main_arg0)
          (ix3 (⟨8 * (t.val / 16) + b.val, by have := t.isLt; have := N_eq; have := b.isLt; omega⟩ : Fin 16)
            (⟨1024 * (t.val % 16) + r.val, by have := r.isLt; omega⟩ : Fin 16384) d) := by
  obtain ⟨e0, e1, e2, -⟩ := idx_facts t
  unfold iblk
  rw [View.read_apply]
  show m ((c : Thread nD τ).loc main_arg0) _ = _
  refine congrArg _ (funext fun a => Fin.ext ?_)
  match a with
  | ⟨0, _⟩ => show win0_0.index t (0 : Fin 3) * 8 + 1 * b.val = 8 * (t.val / 16) + b.val; rw [e0]; omega
  | ⟨1, _⟩ => show win0_0.index t (1 : Fin 3) * 1024 + 1 * r.val = 1024 * (t.val % 16) + r.val; rw [e1]; omega
  | ⟨2, _⟩ => show win0_0.index t (2 : Fin 3) * 64 + 1 * d.val = d.val; rw [e2]; omega

/-- The weights' block is the weights array, at every point. -/
theorem iblk1_eq (c : Dev nD) (t : Fin cfg0.N) :
    (iblk m c 1 t : Vec F S64 .f32) = m ((c : Thread nD τ).loc main_arg1) := by
  obtain ⟨-, -, -, e, -⟩ := idx_facts t
  funext y
  unfold iblk
  rw [View.read_apply]
  show m ((c : Thread nD τ).loc main_arg1) _ = _
  refine congrArg _ (funext fun a => Fin.ext ?_)
  match a with
  | ⟨0, _⟩ => show win0_1.index t (0 : Fin 1) * 64 + 1 * (y 0).val = (y 0).val; rw [e]; omega

/-- The means' block is the means array, at every point. -/
theorem iblk2_eq (c : Dev nD) (t : Fin cfg0.N) :
    (iblk m c 2 t : Vec F S64x64 .f32) = m ((c : Thread nD τ).loc main_arg2) := by
  obtain ⟨-, -, -, -, e0, e1, -⟩ := idx_facts t
  funext y
  unfold iblk
  rw [View.read_apply]
  show m ((c : Thread nD τ).loc main_arg2) _ = _
  refine congrArg _ (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The variances' block is the variances array, at every point. -/
theorem iblk3_eq (c : Dev nD) (t : Fin cfg0.N) :
    (iblk m c 3 t : Vec F S64x64 .f32) = m ((c : Thread nD τ).loc main_arg3) := by
  obtain ⟨-, -, -, -, -, -, e0, e1, -⟩ := idx_facts t
  funext y
  unfold iblk
  rw [View.read_apply]
  show m ((c : Thread nD τ).loc main_arg3) _ = _
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- Entry (b, j) of the output block at point `t` is entry (8·(t/16) + b, j) of the result array. -/
theorem emb4 (t : Fin cfg0.N) (b : Fin 8) (j : Fin 8256) :
    ((cfg0.win 4).blk t).view.emb (ix2 b j)
      = ix2 (⟨8 * (t.val / 16) + b.val, by have := t.isLt; have := N_eq; have := b.isLt; omega⟩ : Fin 16) j := by
  obtain ⟨-, -, -, -, -, -, -, -, e0, e1⟩ := idx_facts t
  funext a
  apply Fin.ext
  match a with
  | ⟨0, _⟩ => show win0_4.index t (0 : Fin 2) * 8 + 1 * b.val = 8 * (t.val / 16) + b.val; rw [e0]; omega
  | ⟨1, _⟩ => show win0_4.index t (1 : Fin 2) * 8256 + 1 * j.val = j.val; rw [e1]; omega

/-- An index of the result array is in point `t`'s block iff each coordinate is in the block's range on its axis. -/
theorem mem_blk4 (t : Fin cfg0.N) (i : S16x8256.Idx) :
    i ∈ ((cfg0.win 4).blk t).view.set ↔ ∀ a : Fin 2, win0_4.index t a * S8x8256.size a ≤ (i a).val ∧ (i a).val < win0_4.index t a * S8x8256.size a + S8x8256.size a := by
  show i ∈ ((View.whole main_v0).slice (win0_4.rect t)).set ↔ _
  rw [View.set_slice_whole, Rect.mem_set_unit]
  exact Iff.rfl

/-- Every entry of the result array is in the block of a point that writes its block back: row `p` is in batch
    block `p / 8`, whose last tile is point `16·(p/8) + 15`. -/
theorem cover4 (i : S16x8256.Idx) :
    ∃ t : Fin cfg0.N, (cfg0.win 4).flush t = true ∧ i ∈ ((cfg0.win 4).blk t).view.set := by
  have hi0 : (i 0).val < 16 := (i 0).isLt
  have hi1 : (i 1).val < 8256 := (i 1).isLt
  have hN := N_eq
  refine ⟨⟨16 * ((i 0).val / 8) + 15, by omega⟩, (flush0_4 _).mpr (by show (16 * ((i 0).val / 8) + 15) % 16 = 15; omega), ?_⟩
  obtain ⟨-, -, -, -, -, -, -, -, e0, e1⟩ := idx_facts (⟨16 * ((i 0).val / 8) + 15, by omega⟩ : Fin cfg0.N)
  rw [mem_blk4]
  intro a
  match a with
  | ⟨0, _⟩ =>
    show win0_4.index _ (0 : Fin 2) * 8 ≤ (i 0).val ∧ (i 0).val < win0_4.index _ (0 : Fin 2) * 8 + 8
    rw [e0]
    show (16 * ((i 0).val / 8) + 15) / 16 * 8 ≤ (i 0).val ∧ (i 0).val < (16 * ((i 0).val / 8) + 15) / 16 * 8 + 8
    omega
  | ⟨1, _⟩ =>
    show win0_4.index _ (1 : Fin 2) * 8256 ≤ (i 1).val ∧ (i 1).val < win0_4.index _ (1 : Fin 2) * 8256 + 8256
    rw [e1]
    omega

end Cert.KernelIdeal.Blocks

end
-- ==== Proof.FisherSpec.lean ====
/-
  The Fisher vector of a diagonal-covariance Gaussian mixture, index by index over the extended reals.

  For one row `xr : Fin 64 → EReal` of the data and mixture parameters `pi` (weights), `mu` (means) and `var`
  (diagonal variances), component `k`'s score is

      logit k = -½ · ((D·log 2π + Σ_d log σ²_{k,d}) + ((Σ_d x_d² / σ²_{k,d} − 2 · Σ_d x_d μ_{k,d} / σ²_{k,d}) + Σ_d μ_{k,d}² / σ²_{k,d})) + log π_k

  (the Mahalanobis distance expanded into three sums), and the row's responsibilities are the softmax of the scores
  over `k`, taken after subtracting the row's maximum: `resp k = exp (logit k − M) / Σ_k' exp (logit k' − M)`.
  Over the `N` rows of one batch element the three weighted sums are `Σ_n resp_n k`, `Σ_n resp_n k · x_{n,d}` and
  `Σ_n resp_n k · x_{n,d}²`; divided by `N` they give the statistics
      d_pi k      = q k − π_k,
      d_mu k d    = qx k d − q k · μ_{k,d},
      d_sigma k d = ((−qx2 k d − q k · μ_{k,d}²) + q k · σ²_{k,d}) + (2 · qx k d) · μ_{k,d}.
  Every operation is the extended reals' own (a quotient is `Ideal.div`, `exp` and `log` are `Ideal.exp` and
  `Ideal.log`), and the float literals stay the bit patterns both programs print: none is ever evaluated.

  The one law that is needed to compare a sum taken tile by tile with the sum taken at once is re-association of a
  finite sum, which holds in any commutative monoid, so at the infinities too: `sum_tiles`.
-/
import Idealize.ShloMosaic.PureOps.Ideal
import Idealize.ShloMosaic.PureOps.Ideal.Laws
import Idealize.ShloMosaic.Lib.ValueIdx

noncomputable section

open scoped BigOperators

namespace Cert.FisherSpec

open Idealize.ShloMosaic

/-! ## The literals both programs print -/

/-- `1.0` -/
abbrev cOne : EReal := Ideal.ofBits .f32 0x3F800000#32
/-- `2.0` -/
abbrev cTwo : EReal := Ideal.ofBits .f32 0x40000000#32
/-- `-0.5` -/
abbrev cNegHalf : EReal := Ideal.ofBits .f32 0xBF000000#32
/-- `64 · log 2π` as both programs round it to f32 -/
abbrev cDLog2Pi : EReal := Ideal.ofBits .f32 0x42EB3F8E#32
/-- `-∞`, the neutral element the row maximum starts from -/
abbrev cNegInf : EReal := Ideal.ofBits .f32 0xFF800000#32
/-- `16384.0`, the number of rows of a batch element -/
abbrev cN : EReal := Ideal.ofBits .f32 0x46800000#32

/-! ## One row's responsibilities -/

section Row

variable (pi : Fin 64 → EReal) (mu var : Fin 64 → Fin 64 → EReal)

/-- `1 / σ²_{k,d}`. -/
def invVar (k d : Fin 64) : EReal := Ideal.div cOne (var k d)

/-- Component `k`'s log-density at the row plus its log-weight. -/
def logit (xr : Fin 64 → EReal) (k : Fin 64) : EReal :=
  cNegHalf * ((cDLog2Pi + ∑ d, Ideal.log (var k d))
      + (((∑ d, (xr d * xr d) * invVar var k d) - cTwo * ∑ d, xr d * (mu k d * invVar var k d))
          + ∑ d, (mu k d * mu k d) * invVar var k d))
    + Ideal.log (pi k)

/-- The row's largest score (from `-∞`, and once more against `-∞` as the softmax is written). -/
def rowMax (xr : Fin 64 → EReal) : EReal :=
  max cNegInf ((Finset.univ : Finset (Fin 64)).fold max cNegInf (logit pi mu var xr))

/-- `exp (logit k − rowMax)`. -/
def expo (xr : Fin 64 → EReal) (k : Fin 64) : EReal := Ideal.exp (logit pi mu var xr k - rowMax pi mu var xr)

/-- The responsibility of component `k` for the row. -/
def resp (xr : Fin 64 → EReal) (k : Fin 64) : EReal :=
  Ideal.div (expo pi mu var xr k) (∑ k' : Fin 64, expo pi mu var xr k')

/-! ## The three weighted sums over a family of rows -/

/-- `Σ_r resp_r k`. -/
def sumQ {n : Nat} (X : Fin n → Fin 64 → EReal) (k : Fin 64) : EReal := ∑ r : Fin n, resp pi mu var (X r) k

/-- `Σ_r resp_r k · x_{r,d}`. -/
def sumQx {n : Nat} (X : Fin n → Fin 64 → EReal) (k d : Fin 64) : EReal := ∑ r : Fin n, resp pi mu var (X r) k * X r d

/-- `Σ_r resp_r k · x_{r,d}²`. -/
def sumQx2 {n : Nat} (X : Fin n → Fin 64 → EReal) (k d : Fin 64) : EReal :=
  ∑ r : Fin n, resp pi mu var (X r) k * (X r d * X r d)

/-! ## The statistics, from the three sums -/

/-- `S0 k / N − π_k`. -/
def dPi (S0 : Fin 64 → EReal) (k : Fin 64) : EReal := Ideal.div (S0 k) cN - pi k

/-- `S1 k d / N − (S0 k / N) · μ_{k,d}`. -/
def dMu (S0 : Fin 64 → EReal) (S1 : Fin 64 → Fin 64 → EReal) (k d : Fin 64) : EReal :=
  Ideal.div (S1 k d) cN - Ideal.div (S0 k) cN * mu k d

/-- `((−S2 k d / N − (S0 k / N) · μ²) + (S0 k / N) · σ²) + (2 · S1 k d / N) · μ`. -/
def dSigma (S0 : Fin 64 → EReal) (S1 S2 : Fin 64 → Fin 64 → EReal) (k d : Fin 64) : EReal :=
  ((-(Ideal.div (S2 k d) cN) - Ideal.div (S0 k) cN * (mu k d * mu k d)) + Ideal.div (S0 k) cN * var k d)
    + (cTwo * Ideal.div (S1 k d) cN) * mu k d

end Row

/-! ## Re-association of a sum taken tile by tile -/

/-- A sum over `T · R` terms is the sum over the `T` tiles of the sums of their `R` terms, term `r` of tile `j`
    being term `R·j + r`: re-association in a commutative monoid. -/
theorem sum_tiles {M : Type*} [AddCommMonoid M] (T R : Nat) (f : Fin (T * R) → M) :
    ∑ n : Fin (T * R), f n
      = ∑ j : Fin T, ∑ r : Fin R, f ⟨R * j.val + r.val, by
          have h1 := j.isLt; have h2 := r.isLt
          calc R * j.val + r.val < R * j.val + R := by omega
            _ = R * (j.val + 1) := by ring
            _ ≤ R * T := Nat.mul_le_mul_left _ h1
            _ = T * R := Nat.mul_comm _ _⟩ := by
  rw [← Fintype.sum_prod_type']
  refine (Fintype.sum_equiv finProdFinEquiv _ _ (fun p => ?_)).symm
  refine congrArg f (Fin.ext ?_)
  show R * p.1.val + p.2.val = (finProdFinEquiv p).val
  rw [finProdFinEquiv_apply_val]
  ring

/-- A sum built up tile by tile from zero — `0`, then `+ tile 0`, `+ tile 1`, … — is the sum of the tiles. -/
theorem chain_eq_sum {M : Type*} [AddCommMonoid M] (g : Nat → M) :
    ∀ n : Nat, Nat.rec (motive := fun _ => M) (0 + g 0) (fun j acc => acc + g (j + 1)) n = ∑ j ∈ Finset.range (n + 1), g j
  | 0 => by simp
  | n + 1 => by
    show (Nat.rec (motive := fun _ => M) (0 + g 0) (fun j acc => acc + g (j + 1)) n) + g (n + 1) = _
    rw [chain_eq_sum g n, Finset.sum_range_succ _ (n + 1)]

/-! ## The Fisher vector as one array -/

section Array

open Idealize.ShloMosaic.ValueIdx

/-- The rows of batch element `b` of the data array. -/
abbrev rowOf {B N : Nat} (x : (⟨3, ![B, N, 64]⟩ : Shape).Idx → EReal) (b : Fin B) : Fin N → Fin 64 → EReal :=
  fun n d => x (ix3 b n d)
/-- A length-64 vector by its coordinate. -/
abbrev vecOf (p : (⟨1, ![64]⟩ : Shape).Idx → EReal) : Fin 64 → EReal := fun k => p (ix1 k)
/-- A 64 × 64 matrix by its coordinates (component, feature). -/
abbrev matOf (a : (⟨2, ![64, 64]⟩ : Shape).Idx → EReal) : Fin 64 → Fin 64 → EReal := fun k d => a (ix2 k d)

variable (x : (⟨3, ![16, 16384, 64]⟩ : Shape).Idx → EReal) (pi : (⟨1, ![64]⟩ : Shape).Idx → EReal)
  (mu var : (⟨2, ![64, 64]⟩ : Shape).Idx → EReal)

/-- The three weighted sums of batch element `b` over all its 16384 rows. -/
abbrev S0 (b : Fin 16) : Fin 64 → EReal := sumQ (vecOf pi) (matOf mu) (matOf var) (rowOf x b)
abbrev S1 (b : Fin 16) : Fin 64 → Fin 64 → EReal := sumQx (vecOf pi) (matOf mu) (matOf var) (rowOf x b)
abbrev S2 (b : Fin 16) : Fin 64 → Fin 64 → EReal := sumQx2 (vecOf pi) (matOf mu) (matOf var) (rowOf x b)

/-- THE RESULT ARRAY: row `b` is the 64 entries of `d_pi`, then the 64 · 64 entries of `d_mu` row-major in
    (component, feature), then those of `d_sigma`. -/
def fisher : (⟨2, ![16, 8256]⟩ : Shape).Idx → EReal := fun i =>
  if h : (i 1).val < 64 then
    dPi (vecOf pi) (S0 x pi mu var (i 0)) ⟨(i 1).val, h⟩
  else if _h2 : (i 1).val < 4160 then
    dMu (matOf mu) (S0 x pi mu var (i 0)) (S1 x pi mu var (i 0))
      ⟨((i 1).val - 64) / 64, by have := idx2_lt1 i; omega⟩ ⟨((i 1).val - 64) % 64, Nat.mod_lt _ (by decide)⟩
  else
    dSigma (matOf mu) (matOf var) (S0 x pi mu var (i 0)) (S1 x pi mu var (i 0)) (S2 x pi mu var (i 0))
      ⟨((i 1).val - 4160) / 64, by have := idx2_lt1 i; omega⟩ ⟨((i 1).val - 4160) % 64, Nat.mod_lt _ (by decide)⟩

theorem fisher_dPi (b : Fin 16) (k : Fin 64) :
    fisher x pi mu var (ix2 b (⟨k.val, by have := k.isLt; omega⟩ : Fin 8256)) = dPi (vecOf pi) (S0 x pi mu var b) k := by
  unfold fisher
  have hk : ((ix2 b (⟨k.val, by have := k.isLt; omega⟩ : Fin 8256) : (⟨2, ![16, 8256]⟩ : Shape).Idx) 1).val < 64 := k.isLt
  rw [dif_pos hk]

theorem fisher_dMu (b : Fin 16) (k d : Fin 64) :
    fisher x pi mu var (ix2 b (⟨64 + (64 * k.val + d.val), by have := k.isLt; have := d.isLt; omega⟩ : Fin 8256))
      = dMu (matOf mu) (S0 x pi mu var b) (S1 x pi mu var b) k d := by
  unfold fisher
  have hk := k.isLt; have hd := d.isLt
  have h1 : ¬((ix2 b (⟨64 + (64 * k.val + d.val), by omega⟩ : Fin 8256) : (⟨2, ![16, 8256]⟩ : Shape).Idx) 1).val < 64 := by
    show ¬(64 + (64 * k.val + d.val) < 64); omega
  have h2 : ((ix2 b (⟨64 + (64 * k.val + d.val), by omega⟩ : Fin 8256) : (⟨2, ![16, 8256]⟩ : Shape).Idx) 1).val < 4160 := by
    show 64 + (64 * k.val + d.val) < 4160; omega
  rw [dif_neg h1, dif_pos h2]
  have ek : (⟨(64 + (64 * k.val + d.val) - 64) / 64, by omega⟩ : Fin 64) = k := Fin.ext (by show (64 + (64 * k.val + d.val) - 64) / 64 = k.val; omega)
  have ed : (⟨(64 + (64 * k.val + d.val) - 64) % 64, Nat.mod_lt _ (by decide)⟩ : Fin 64) = d := Fin.ext (by show (64 + (64 * k.val + d.val) - 64) % 64 = d.val; omega)
  exact congrArg₂ (dMu (matOf mu) (S0 x pi mu var b) (S1 x pi mu var b)) ek ed

theorem fisher_dSigma (b : Fin 16) (k d : Fin 64) :
    fisher x pi mu var (ix2 b (⟨4160 + (64 * k.val + d.val), by have := k.isLt; have := d.isLt; omega⟩ : Fin 8256))
      = dSigma (matOf mu) (matOf var) (S0 x pi mu var b) (S1 x pi mu var b) (S2 x pi mu var b) k d := by
  unfold fisher
  have hk := k.isLt; have hd := d.isLt
  have h1 : ¬((ix2 b (⟨4160 + (64 * k.val + d.val), by omega⟩ : Fin 8256) : (⟨2, ![16, 8256]⟩ : Shape).Idx) 1).val < 64 := by
    show ¬(4160 + (64 * k.val + d.val) < 64); omega
  have h2 : ¬((ix2 b (⟨4160 + (64 * k.val + d.val), by omega⟩ : Fin 8256) : (⟨2, ![16, 8256]⟩ : Shape).Idx) 1).val < 4160 := by
    show ¬(4160 + (64 * k.val + d.val) < 4160); omega
  rw [dif_neg h1, dif_neg h2]
  have ek : (⟨(4160 + (64 * k.val + d.val) - 4160) / 64, by omega⟩ : Fin 64) = k := Fin.ext (by show (4160 + (64 * k.val + d.val) - 4160) / 64 = k.val; omega)
  have ed : (⟨(4160 + (64 * k.val + d.val) - 4160) % 64, Nat.mod_lt _ (by decide)⟩ : Fin 64) = d := Fin.ext (by show (4160 + (64 * k.val + d.val) - 4160) % 64 = d.val; omega)
  exact congrArg₂ (dSigma (matOf mu) (matOf var) (S0 x pi mu var b) (S1 x pi mu var b) (S2 x pi mu var b)) ek ed

/-- Every index of a `[R, 8256]` array is, along its second axis, in one of the three stretches: entry `k` of the
    first 64, or entry `64k + d` of the second or of the third stretch of 4096. -/
theorem idx_cases {R : Nat} (i : (⟨2, ![R, 8256]⟩ : Shape).Idx) :
    (∃ (b : Fin R) (k : Fin 64), i = ix2 b (⟨k.val, by have := k.isLt; omega⟩ : Fin 8256))
    ∨ (∃ (b : Fin R) (k d : Fin 64), i = ix2 b (⟨64 + (64 * k.val + d.val), by have := k.isLt; have := d.isLt; omega⟩ : Fin 8256))
    ∨ (∃ (b : Fin R) (k d : Fin 64), i = ix2 b (⟨4160 + (64 * k.val + d.val), by have := k.isLt; have := d.isLt; omega⟩ : Fin 8256)) := by
  obtain ⟨b, j, rfl⟩ : ∃ (b : Fin R) (j : Fin 8256), i = ix2 b j := ⟨i 0, i 1, eq_ix2 i⟩
  have hj : j.val < 8256 := j.isLt
  by_cases h1 : j.val < 64
  · exact Or.inl ⟨b, ⟨j.val, h1⟩, congrArg (ix2 b) (Fin.ext rfl)⟩
  · by_cases h2 : j.val < 4160
    · refine Or.inr (Or.inl ⟨b, ⟨(j.val - 64) / 64, by omega⟩, ⟨(j.val - 64) % 64, Nat.mod_lt _ (by decide)⟩, ?_⟩)
      refine congrArg (ix2 b) (Fin.ext ?_)
      show j.val = 64 + (64 * ((j.val - 64) / 64) + (j.val - 64) % 64)
      have := Nat.div_add_mod (j.val - 64) 64
      omega
    · refine Or.inr (Or.inr ⟨b, ⟨(j.val - 4160) / 64, by omega⟩, ⟨(j.val - 4160) % 64, Nat.mod_lt _ (by decide)⟩, ?_⟩)
      refine congrArg (ix2 b) (Fin.ext ?_)
      show j.val = 4160 + (64 * ((j.val - 4160) / 64) + (j.val - 4160) % 64)
      have := Nat.div_add_mod (j.val - 4160) 64
      omega

/-- An array that agrees with the Fisher vector's three read-forms at every row is the Fisher vector. -/
theorem eq_fisher_of_forms (A : (⟨2, ![16, 8256]⟩ : Shape).Idx → EReal)
    (h1 : ∀ (b : Fin 16) (k : Fin 64), A (ix2 b (⟨k.val, by have := k.isLt; omega⟩ : Fin 8256)) = dPi (vecOf pi) (S0 x pi mu var b) k)
    (h2 : ∀ (b : Fin 16) (k d : Fin 64), A (ix2 b (⟨64 + (64 * k.val + d.val), by have := k.isLt; have := d.isLt; omega⟩ : Fin 8256))
        = dMu (matOf mu) (S0 x pi mu var b) (S1 x pi mu var b) k d)
    (h3 : ∀ (b : Fin 16) (k d : Fin 64), A (ix2 b (⟨4160 + (64 * k.val + d.val), by have := k.isLt; have := d.isLt; omega⟩ : Fin 8256))
        = dSigma (matOf mu) (matOf var) (S0 x pi mu var b) (S1 x pi mu var b) (S2 x pi mu var b) k d) :
    A = fisher x pi mu var := by
  funext i
  rcases idx_cases i with ⟨b, k, rfl⟩ | ⟨b, k, d, rfl⟩ | ⟨b, k, d, rfl⟩
  · rw [h1, fisher_dPi]
  · rw [h2, fisher_dMu]
  · rw [h3, fisher_dSigma]

end Array

end Cert.FisherSpec

end
-- ==== Proof.KernelPayloads.lean ====
/-
  The kernel's pure values read at an index, against the specification of the Fisher vector (FisherSpec.lean).

  One grid step of the kernel sees a block `x : [8, 1024, 64]` of the data — batch element `b`, row `r` of the tile,
  feature `d` — and the mixture parameters `π : [64]`, `μ, σ² : [64, 64]` indexed (component `k`, feature `d`). It forms

    * the block of scores: for every row and component, `-½ · ((D·log 2π + Σ_d log σ²_{k,d}) + ((Σ_d x_d²/σ²_{k,d}
      − 2 · Σ_d x_d μ_{k,d}/σ²_{k,d}) + Σ_d μ_{k,d}²/σ²_{k,d}))`. The two sums that involve the data are matrix products of
      the rows of the block, flattened to `[8192, 64]`, with the transposes of `1/σ²` and `μ/σ²`; the two that do not are
      row sums of `[64, 64]` matrices, broadcast over the rows;
    * the responsibilities: the scores plus `log π_k`, less the row's maximum, exponentiated and divided by their sum over
      the components;
    * the three updates of the accumulators: the responsibilities summed over the tile's rows, and their products with
      the data and with the squared data contracted over the tile's rows (a batched matrix product).

  Each is read here at explicit coordinates, `(b, r, k)`, `(b, k)` or `(b, k, d)`, as the specification's term of the
  curried views `piF`, `matF`, `rowsF` of the operands: `resp_blk`, `acc7_apply`, `acc8_apply`, `acc9_apply`. At the
  extended reals a format change is the identity and a contraction is the plain sum of products, so nothing but
  re-indexing is involved: a shape cast keeps the row-major position, a transpose swaps the coordinates, a broadcast
  forgets them, a one-axis reduction is the sum (or the fold of `max`) over that axis's coordinate.
-/
import proofs.«151066_j6837587935988_2_alg».proof.Proof.Gen.KernelIdeal.Skeleton
import proofs.«151066_j6837587935988_2_alg».proof.Proof.FisherSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Cert.KernelIdeal Cert.KernelIdeal.Gen Cert.FisherSpec Idealize.ShloMosaic Idealize.ShloMosaic.ValueIdx

/-! ## Layout operations of the kernel read at coordinates -/

section Layout
variable {α : Type}

/-- Row `1024·b + r` of the flattened `[8192, 64]` view is row `r` of batch element `b`. -/
theorem flatten_apply (v : S8x1024x64.Idx → α) (h : S8x1024x64.ShapeCasts S8192x64) (b : Fin 8) (r : Fin 1024) (d : Fin 64) :
    shapeCast S8192x64 v h (ix2 (⟨1024 * b.val + r.val, by omega⟩ : Fin 8192) d) = v (ix3 b r d) :=
  shapeCast_apply v h _ _ (by
    rw [Shape.rowMajor_val_three, Shape.rowMajor_val_two]
    show (b.val * 1024 + r.val) * 64 + d.val = (1024 * b.val + r.val) * 64 + d.val
    omega)

/-- … and back: the `[8, 1024, 64]` view at `(b, r, k)` is the flat view at row `1024·b + r`. -/
theorem unflatten_apply (v : S8192x64.Idx → α) (h : S8192x64.ShapeCasts S8x1024x64) (b : Fin 8) (r : Fin 1024) (k : Fin 64) :
    shapeCast S8x1024x64 v h (ix3 b r k) = v (ix2 (⟨1024 * b.val + r.val, by omega⟩ : Fin 8192) k) :=
  shapeCast_apply v h _ _ (by
    rw [Shape.rowMajor_val_three, Shape.rowMajor_val_two]
    show (1024 * b.val + r.val) * 64 + k.val = (b.val * 1024 + r.val) * 64 + k.val
    omega)

/-- A `[64]` vector viewed `[1, 1, 64]` reads its entry. -/
theorem cast_k_11k_apply (v : S64.Idx → α) (h : S64.ShapeCasts S1x1x64) (u w : Fin 1) (k : Fin 64) :
    shapeCast S1x1x64 v h (ix3 u w k) = v (ix1 k) :=
  shapeCast_apply v h _ _ (by
    have hu : u.val = 0 := by omega
    have hw : w.val = 0 := by omega
    rw [Shape.rowMajor_val_one, Shape.rowMajor_val_three]
    show k.val = (u.val * 1 + w.val) * 64 + k.val
    rw [hu, hw]; omega)

/-- A `[1, 1, 64]` vector broadcast over the batch elements and rows reads its entry `k`. -/
theorem bcast_11k_apply (v : S1x1x64.Idx → α) (h : S1x1x64.Broadcasts S8x1024x64) (b : Fin 8) (r : Fin 1024) (k : Fin 64) :
    broadcastTo S8x1024x64 v h (ix3 b r k) = v (ix3 (0 : Fin 1) (0 : Fin 1) k) := by
  refine broadcastTo_apply v h (ix3 b r k) (ix3 (0 : Fin 1) (0 : Fin 1) k) fun a => ?_
  match a with
  | ⟨0, _⟩ => rfl
  | ⟨1, _⟩ => rfl
  | ⟨2, _⟩ =>
    show k.val = if (64 : Nat) = 1 then 0 else k.val
    rw [if_neg (by decide)]

/-- A `[8, 1024]` vector viewed `[8, 1024, 1]` reads its entry. -/
theorem cast_br_br1_apply (v : S8x1024.Idx → α) (h : S8x1024.ShapeCasts S8x1024x1) (b : Fin 8) (r : Fin 1024) (u : Fin 1) :
    shapeCast S8x1024x1 v h (ix3 b r u) = v (ix2 b r) :=
  shapeCast_apply v h _ _ (by
    have hu : u.val = 0 := by omega
    rw [Shape.rowMajor_val_two, Shape.rowMajor_val_three]
    show b.val * 1024 + r.val = (b.val * 1024 + r.val) * 1 + u.val
    rw [hu]; omega)

/-- A `[8, 1024, 1]` vector broadcast along the last axis reads its entry `(b, r)`. -/
theorem bcast_br1_apply (v : S8x1024x1.Idx → α) (h : S8x1024x1.Broadcasts S8x1024x64) (b : Fin 8) (r : Fin 1024) (k : Fin 64) :
    broadcastTo S8x1024x64 v h (ix3 b r k) = v (ix3 b r (0 : Fin 1)) := by
  refine broadcastTo_apply v h (ix3 b r k) (ix3 b r (0 : Fin 1)) fun a => ?_
  match a with
  | ⟨0, _⟩ =>
    show b.val = if (8 : Nat) = 1 then 0 else b.val
    rw [if_neg (by decide)]
  | ⟨1, _⟩ =>
    show r.val = if (1024 : Nat) = 1 then 0 else r.val
    rw [if_neg (by decide)]
  | ⟨2, _⟩ => rfl

end Layout

/-! ## The reductions of the kernel read at coordinates -/

/-- The sum over the features of a `[64, 64]` matrix's row `k`. -/
theorem rowSum_apply (M : FVec Ideal S64x64 .f32) (h : S64x64.Reduces [1] S64) (hφ : FKind.Formats .f32)
    (hacc : (0x00000000#32 : BitVec 32) = FKind.add.neutral .f32 hφ) (k : Fin 64) :
    multiReduction (F := Ideal) .add [1] S64 M 0x00000000#32 h hφ hacc (ix1 k) = ∑ d : Fin 64, M (ix2 k d) := by
  refine (Ideal.multiReduction_add_single M _ h hφ hacc _).trans ?_
  refine Finset.sum_congr rfl fun d _ => ?_
  exact congrArg M (funext fun a => Fin.ext (by match a with | ⟨0, _⟩ => rfl | ⟨1, _⟩ => rfl))

/-- The sum over the components of a `[8, 1024, 64]` block's row `(b, r)`. -/
theorem compSum_apply (V : FVec Ideal S8x1024x64 .f32) (h : S8x1024x64.Reduces [2] S8x1024) (hφ : FKind.Formats .f32)
    (hacc : (0x00000000#32 : BitVec 32) = FKind.add.neutral .f32 hφ) (b : Fin 8) (r : Fin 1024) :
    multiReduction (F := Ideal) .add [2] S8x1024 V 0x00000000#32 h hφ hacc (ix2 b r) = ∑ k : Fin 64, V (ix3 b r k) := by
  refine (Ideal.multiReduction_add_single V _ h hφ hacc _).trans ?_
  refine Finset.sum_congr rfl fun k _ => ?_
  exact congrArg V (funext fun a => Fin.ext (by match a with | ⟨0, _⟩ => rfl | ⟨1, _⟩ => rfl | ⟨2, _⟩ => rfl))

/-- The maximum over the components of a `[8, 1024, 64]` block's row `(b, r)`, from the accumulator's value. -/
theorem compMax_apply (V : FVec Ideal S8x1024x64 .f32) (h : S8x1024x64.Reduces [2] S8x1024) (hφ : FKind.Formats .f32)
    (hacc : (0xFF800000#32 : BitVec 32) = FKind.maximumf.neutral .f32 hφ) (b : Fin 8) (r : Fin 1024) :
    multiReduction (F := Ideal) .maximumf [2] S8x1024 V 0xFF800000#32 h hφ hacc (ix2 b r)
      = (Finset.univ : Finset (Fin 64)).fold max (Ideal.ofBits .f32 0xFF800000#32) (fun k => V (ix3 b r k)) := by
  refine (Ideal.multiReduction_maximumf_single V _ h hφ hacc _).trans ?_
  refine congrArg (fun f => (Finset.univ : Finset (Fin 64)).fold max (Ideal.ofBits .f32 0xFF800000#32) f) ?_
  funext k
  exact congrArg V (funext fun a => Fin.ext (by match a with | ⟨0, _⟩ => rfl | ⟨1, _⟩ => rfl | ⟨2, _⟩ => rfl))

/-- The sum over the rows of a `[8, 1024, 64]` block, at batch element `b` and component `k`. -/
theorem rowsSum_apply (V : FVec Ideal S8x1024x64 .f32) (h : S8x1024x64.Reduces [1] S8x64) (hφ : FKind.Formats .f32)
    (hacc : (0x00000000#32 : BitVec 32) = FKind.add.neutral .f32 hφ) (b : Fin 8) (k : Fin 64) :
    multiReduction (F := Ideal) .add [1] S8x64 V 0x00000000#32 h hφ hacc (ix2 b k) = ∑ r : Fin 1024, V (ix3 b r k) := by
  refine (Ideal.multiReduction_add_single V _ h hφ hacc _).trans ?_
  refine Finset.sum_congr rfl fun r _ => ?_
  exact congrArg V (funext fun a => Fin.ext (by match a with | ⟨0, _⟩ => rfl | ⟨1, _⟩ => rfl | ⟨2, _⟩ => rfl))

/-! ## The two contractions read at coordinates -/

theorem mm2_lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem mm2_lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem mm2_rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem mm2_rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The plain product of an `[8192, 64]` by a `[64, 64]` matrix into the zero accumulator: entry `(n, k)` is the sum
    over the shared axis. -/
theorem mm2_apply (A : FVec Ideal S8192x64 .bf16) (B : FVec Ideal S64x64 .bf16) (n : Fin 8192) (k : Fin 64) :
    matmul (F := Ideal) dot_S8192x64_S64x64_S8192x64_1_0_0_1_n_n none A B (constant S8192x64 .f32 0x00000000#32) (ix2 n k)
      = ∑ d : Fin 64, A (ix2 n d) * B (ix2 d k) := by
  refine (Ideal.matmul_constant_zero_apply dot_S8192x64_S64x64_S8192x64_1_0_0_1_n_n none A B (ix2 n k)).trans ?_
  rw [← Equiv.sum_comp (contrEquiv1 dot_S8192x64_S64x64_S8192x64_1_0_0_1_n_n 64 rfl rfl).symm]
  refine Finset.sum_congr rfl fun d _ => ?_
  have hd := contrEquiv1_symm_val dot_S8192x64_S64x64_S8192x64_1_0_0_1_n_n 64 rfl rfl d
  have el : dot_S8192x64_S64x64_S8192x64_1_0_0_1_n_n.lhsIdx (ix2 n k) ((contrEquiv1 dot_S8192x64_S64x64_S8192x64_1_0_0_1_n_n 64 rfl rfl).symm d) = ix2 n d := funext fun a => Fin.ext (by
    match a with
    | ⟨0, _⟩ => exact mm2_lhs0 _ _
    | ⟨1, _⟩ => exact (mm2_lhs1 _ _).trans hd)
  have er : dot_S8192x64_S64x64_S8192x64_1_0_0_1_n_n.rhsIdx (ix2 n k) ((contrEquiv1 dot_S8192x64_S64x64_S8192x64_1_0_0_1_n_n 64 rfl rfl).symm d) = ix2 d k := funext fun a => Fin.ext (by
    match a with
    | ⟨0, _⟩ => exact (mm2_rhs0 _ _).trans hd
    | ⟨1, _⟩ => exact mm2_rhs1 _ _)
  rw [el, er]

/-- A block's rows, flattened, times the transpose of a `[64, 64]` matrix `W`, read back as `[8, 1024, 64]`: entry
    `(b, r, k)` is `Σ_d X(b, r, d) · W(k, d)`. -/
theorem mmT_apply (X : FVec Ideal S8x1024x64 .bf16) (W : FVec Ideal S64x64 .bf16)
    (h1 : S8x1024x64.ShapeCasts S8192x64) (h2 : S64x64.Transposes [1, 0] S64x64) (h3 : S8192x64.ShapeCasts S8x1024x64)
    (b : Fin 8) (r : Fin 1024) (k : Fin 64) :
    shapeCast S8x1024x64 (matmul (F := Ideal) dot_S8192x64_S64x64_S8192x64_1_0_0_1_n_n none (shapeCast S8192x64 X h1)
        (transpose S64x64 [1, 0] W h2) (constant S8192x64 .f32 0x00000000#32)) h3 (ix3 b r k)
      = ∑ d : Fin 64, X (ix3 b r d) * W (ix2 k d) := by
  refine (unflatten_apply _ h3 b r k).trans ?_
  refine (mm2_apply _ _ _ k).trans ?_
  refine Finset.sum_congr rfl fun d _ => ?_
  exact congrArg₂ (· * ·) (flatten_apply X h1 b r d) (transpose_ix2_apply W h2 d k)

theorem mm3_lhs0 (i : S8x64x64.Idx) (q : dot_S8x1024x64_S8x1024x64_S8x64x64_1_1_2_2_0_0.contr.Idx) :
    (dot_S8x1024x64_S8x1024x64_S8x64x64_1_1_2_2_0_0.lhsIdx i q 0).val = (i 0).val := by
  unfold DotDims.lhsIdx
  rw [dif_pos (show (0 : Fin S8x1024x64.rank) ∈ dot_S8x1024x64_S8x1024x64_S8x64x64_1_1_2_2_0_0.lhsBatch by decide)]
  rfl
theorem mm3_lhs1 (i : S8x64x64.Idx) (q : dot_S8x1024x64_S8x1024x64_S8x64x64_1_1_2_2_0_0.contr.Idx) :
    (dot_S8x1024x64_S8x1024x64_S8x64x64_1_1_2_2_0_0.lhsIdx i q 1).val = (q ⟨0, by decide⟩).val :=
  dot_S8x1024x64_S8x1024x64_S8x64x64_1_1_2_2_0_0.lhsIdx_val_of_single rfl i q
theorem mm3_lhs2 (i : S8x64x64.Idx) (q : dot_S8x1024x64_S8x1024x64_S8x64x64_1_1_2_2_0_0.contr.Idx) :
    (dot_S8x1024x64_S8x1024x64_S8x64x64_1_1_2_2_0_0.lhsIdx i q 2).val = (i 1).val := by
  unfold DotDims.lhsIdx
  rw [dif_neg (show ¬(2 : Fin S8x1024x64.rank) ∈ dot_S8x1024x64_S8x1024x64_S8x64x64_1_1_2_2_0_0.lhsBatch by decide), dif_pos (show (2 : Fin S8x1024x64.rank) ∈ dot_S8x1024x64_S8x1024x64_S8x64x64_1_1_2_2_0_0.lhsNonContracting by decide)]
  rfl
theorem mm3_rhs0 (i : S8x64x64.Idx) (q : dot_S8x1024x64_S8x1024x64_S8x64x64_1_1_2_2_0_0.contr.Idx) :
    (dot_S8x1024x64_S8x1024x64_S8x64x64_1_1_2_2_0_0.rhsIdx i q 0).val = (i 0).val := by
  unfold DotDims.rhsIdx
  rw [dif_pos (show (0 : Fin S8x1024x64.rank) ∈ dot_S8x1024x64_S8x1024x64_S8x64x64_1_1_2_2_0_0.rhsBatch by decide)]
  rfl
theorem mm3_rhs1 (i : S8x64x64.Idx) (q : dot_S8x1024x64_S8x1024x64_S8x64x64_1_1_2_2_0_0.contr.Idx) :
    (dot_S8x1024x64_S8x1024x64_S8x64x64_1_1_2_2_0_0.rhsIdx i q 1).val = (q ⟨0, by decide⟩).val :=
  dot_S8x1024x64_S8x1024x64_S8x64x64_1_1_2_2_0_0.rhsIdx_val_of_single rfl i q
theorem mm3_rhs2 (i : S8x64x64.Idx) (q : dot_S8x1024x64_S8x1024x64_S8x64x64_1_1_2_2_0_0.contr.Idx) :
    (dot_S8x1024x64_S8x1024x64_S8x64x64_1_1_2_2_0_0.rhsIdx i q 2).val = (i 2).val := by
  unfold DotDims.rhsIdx
  rw [dif_neg (show ¬(2 : Fin S8x1024x64.rank) ∈ dot_S8x1024x64_S8x1024x64_S8x64x64_1_1_2_2_0_0.rhsBatch by decide), dif_pos (show (2 : Fin S8x1024x64.rank) ∈ dot_S8x1024x64_S8x1024x64_S8x64x64_1_1_2_2_0_0.rhsNonContracting by decide)]
  rfl

/-- The batched product over the rows: entry `(b, k, d)` is `Σ_r A(b, r, k) · B(b, r, d)`. -/
theorem mm3_apply (A B : FVec Ideal S8x1024x64 .bf16) (b : Fin 8) (k d : Fin 64) :
    matmul (F := Ideal) dot_S8x1024x64_S8x1024x64_S8x64x64_1_1_2_2_0_0 none A B (constant S8x64x64 .f32 0x00000000#32) (ix3 b k d)
      = ∑ r : Fin 1024, A (ix3 b r k) * B (ix3 b r d) := by
  refine (Ideal.matmul_constant_zero_apply dot_S8x1024x64_S8x1024x64_S8x64x64_1_1_2_2_0_0 none A B (ix3 b k d)).trans ?_
  rw [← Equiv.sum_comp (contrEquiv1 dot_S8x1024x64_S8x1024x64_S8x64x64_1_1_2_2_0_0 1024 rfl rfl).symm]
  refine Finset.sum_congr rfl fun r _ => ?_
  have hr := contrEquiv1_symm_val dot_S8x1024x64_S8x1024x64_S8x64x64_1_1_2_2_0_0 1024 rfl rfl r
  have el : dot_S8x1024x64_S8x1024x64_S8x64x64_1_1_2_2_0_0.lhsIdx (ix3 b k d) ((contrEquiv1 dot_S8x1024x64_S8x1024x64_S8x64x64_1_1_2_2_0_0 1024 rfl rfl).symm r) = ix3 b r k := funext fun a => Fin.ext (by
    match a with
    | ⟨0, _⟩ => exact mm3_lhs0 _ _
    | ⟨1, _⟩ => exact (mm3_lhs1 _ _).trans hr
    | ⟨2, _⟩ => exact mm3_lhs2 _ _)
  have er : dot_S8x1024x64_S8x1024x64_S8x64x64_1_1_2_2_0_0.rhsIdx (ix3 b k d) ((contrEquiv1 dot_S8x1024x64_S8x1024x64_S8x64x64_1_1_2_2_0_0 1024 rfl rfl).symm r) = ix3 b r d := funext fun a => Fin.ext (by
    match a with
    | ⟨0, _⟩ => exact mm3_rhs0 _ _
    | ⟨1, _⟩ => exact (mm3_rhs1 _ _).trans hr
    | ⟨2, _⟩ => exact mm3_rhs2 _ _)
  rw [el, er]

/-! ## The curried views of the kernel's operands -/

/-- The mixture weights by component. -/
abbrev piF (pi : Vec Ideal S64 .f32) : Fin 64 → EReal := fun k => pi (ix1 k)
/-- A `[64, 64]` parameter matrix by (component, feature). -/
abbrev matF (a : Vec Ideal S64x64 .f32) : Fin 64 → Fin 64 → EReal := fun k d => a (ix2 k d)
/-- The rows of batch element `b` of a data block, by (row, feature). -/
abbrev rowsF (x : Vec Ideal S8x1024x64 .f32) (b : Fin 8) : Fin 1024 → Fin 64 → EReal := fun r d => x (ix3 b r d)

/-! ## The scores: the log-density of every component at every row of the block -/

theorem pay12_apply (x : Vec Ideal S8x1024x64 .f32) (i : S8x1024x64.Idx) : k0_pay12 (F := Ideal) x i = x i := rfl
theorem pay13_apply (x : Vec Ideal S8x1024x64 .f32) (i : S8x1024x64.Idx) : k0_pay13 (F := Ideal) x i = x i * x i := rfl
theorem pay16_apply (L : FVec Ideal S8x1024x64 .f32) (pi : Vec Ideal S64 .f32) (i : S8x1024x64.Idx) :
    k0_pay16 (F := Ideal) L pi i = k0_pay15 (F := Ideal) L pi i := rfl

/-- The block of scores at `(b, r, k)` is component `k`'s log-density at row `r` of batch element `b`: the score of the
    specification less its log-weight. The two matrix products are the sums over the features of `x²/σ²` and
    `x·μ/σ²`; the two row sums of the parameters are broadcast over the rows. -/
theorem pay14_apply (x : Vec Ideal S8x1024x64 .f32) (var mu : Vec Ideal S64x64 .f32) (b : Fin 8) (r : Fin 1024) (k : Fin 64) :
    k0_pay14 (F := Ideal) x var mu (ix3 b r k)
      = cNegHalf * ((cDLog2Pi + ∑ d, Ideal.log (matF var k d))
          + (((∑ d, (rowsF x b r d * rowsF x b r d) * invVar (matF var) k d)
                - cTwo * ∑ d, rowsF x b r d * (matF mu k d * invVar (matF var) k d))
              + ∑ d, (matF mu k d * matF mu k d) * invVar (matF var) k d)) := by
  unfold k0_pay14
  simp only [mulf_apply, addf_apply, subf_apply, broadcast_apply, bcast_11k_apply, cast_k_11k_apply]
  refine congrArg₂ (fun u v : EReal => cNegHalf * ((cDLog2Pi + u) + v)) ?_
    (congrArg₂ (fun u v : EReal => u + v) (congrArg₂ (fun u v : EReal => u - cTwo * v) ?_ ?_) ?_)
  · exact rowSum_apply (log var) _ _ _ k
  · exact mmT_apply (k0_pay13 x) _ _ _ _ b r k
  · exact mmT_apply (k0_pay12 x) _ _ _ _ b r k
  · exact rowSum_apply _ _ _ _ k

/-! ## The responsibilities: the softmax of the scores over the components -/

/-- The exponentials the softmax sums, on any block of scores `V`: the score less the row's maximum, the maximum taken
    from `-∞` over the components and once more against the `-∞` splat. -/
theorem expo_apply (V : FVec Ideal S8x1024x64 .f32) (h1 : S8x1024x64.Reduces [2] S8x1024) (hφ : FKind.Formats .f32)
    (hacc : (0xFF800000#32 : BitVec 32) = FKind.maximumf.neutral .f32 hφ) (h2 : S8x1024.ShapeCasts S8x1024x1)
    (h3 : S8x1024x1.Broadcasts S8x1024x64) (b : Fin 8) (r : Fin 1024) (k : Fin 64) :
    exp (subf V (broadcastTo S8x1024x64 (shapeCast S8x1024x1 (maximumf (broadcast S8x1024 (Ideal.ofBits .f32 0xFF800000#32))
        (multiReduction (F := Ideal) .maximumf [2] S8x1024 V 0xFF800000#32 h1 hφ hacc)) h2) h3)) (ix3 b r k)
      = Ideal.exp (V (ix3 b r k) - max cNegInf ((Finset.univ : Finset (Fin 64)).fold max cNegInf fun k' => V (ix3 b r k'))) := by
  refine congrArg Ideal.exp (congrArg (V (ix3 b r k) - ·) ?_)
  refine (bcast_br1_apply _ h3 b r k).trans ((cast_br_br1_apply _ h2 b r _).trans ?_)
  exact congrArg (max cNegInf) (compMax_apply V h1 hφ hacc b r)

/-- The quotient the softmax ends with, given what the exponentials `E` are along the row. -/
theorem softmax_apply (E : FVec Ideal S8x1024x64 .f32) (b : Fin 8) (r : Fin 1024) (k : Fin 64)
    (h1 : S8x1024x64.Reduces [2] S8x1024) (hφ : FKind.Formats .f32)
    (hacc : (0x00000000#32 : BitVec 32) = FKind.add.neutral .f32 hφ) (h2 : S8x1024.ShapeCasts S8x1024x1)
    (h3 : S8x1024x1.Broadcasts S8x1024x64) (e : Fin 64 → EReal) (hE : ∀ k' : Fin 64, E (ix3 b r k') = e k') :
    divf E (broadcastTo S8x1024x64 (shapeCast S8x1024x1
        (multiReduction (F := Ideal) .add [2] S8x1024 E 0x00000000#32 h1 hφ hacc) h2) h3) (ix3 b r k)
      = Ideal.div (e k) (∑ k' : Fin 64, e k') := by
  refine congrArg₂ Ideal.div (hE k) ?_
  refine (bcast_br1_apply _ h3 b r k).trans ((cast_br_br1_apply _ h2 b r _).trans ?_)
  refine (compSum_apply E h1 hφ hacc b r).trans ?_
  exact Finset.sum_congr rfl fun k' _ => hE k'

/-- The softmax as the kernel writes it, for any block of scores `L`: with `g k' = L(b, r, k') + log π_k'`, entry
    `(b, r, k)` is `exp (g k − M) / Σ_k' exp (g k' − M)`, `M` the maximum of `g` taken from `-∞` and once more against `-∞`. -/
theorem pay15_apply (L : FVec Ideal S8x1024x64 .f32) (pi : Vec Ideal S64 .f32) (b : Fin 8) (r : Fin 1024) (k : Fin 64)
    (g : Fin 64 → EReal) (hg : ∀ k' : Fin 64, L (ix3 b r k') + Ideal.log (pi (ix1 k')) = g k') :
    k0_pay15 (F := Ideal) L pi (ix3 b r k)
      = Ideal.div (Ideal.exp (g k - max cNegInf ((Finset.univ : Finset (Fin 64)).fold max cNegInf g)))
          (∑ k' : Fin 64, Ideal.exp (g k' - max cNegInf ((Finset.univ : Finset (Fin 64)).fold max cNegInf g))) := by
  have hV : ∀ k' : Fin 64, addf L (broadcastTo S8x1024x64 (shapeCast S1x1x64 (log pi) shapeCasts_S64_S1x1x64)
      broadcasts_S1x1x64_S8x1024x64) (ix3 b r k') = g k' := fun k' =>
    (congrArg (L (ix3 b r k') + ·) ((bcast_11k_apply _ _ b r k').trans (cast_k_11k_apply _ _ _ _ k'))).trans (hg k')
  have hfun : (fun k' : Fin 64 => addf L (broadcastTo S8x1024x64 (shapeCast S1x1x64 (log pi) shapeCasts_S64_S1x1x64)
      broadcasts_S1x1x64_S8x1024x64) (ix3 b r k')) = g := funext hV
  unfold k0_pay15
  refine (softmax_apply _ b r k _ _ _ _ _ _ (fun k' => expo_apply _ _ _ _ _ _ b r k')).trans ?_
  exact congrArg (fun f : Fin 64 → EReal =>
    Ideal.div (Ideal.exp (f k - max cNegInf ((Finset.univ : Finset (Fin 64)).fold max cNegInf f)))
      (∑ k' : Fin 64, Ideal.exp (f k' - max cNegInf ((Finset.univ : Finset (Fin 64)).fold max cNegInf f)))) hfun

/-- **The responsibilities of the block.** -/
theorem resp_blk (x : Vec Ideal S8x1024x64 .f32) (pi : Vec Ideal S64 .f32) (mu var : Vec Ideal S64x64 .f32)
    (b : Fin 8) (r : Fin 1024) (k : Fin 64) :
    k0_pay15 (F := Ideal) (k0_pay14 x var mu) pi (ix3 b r k) = resp (piF pi) (matF mu) (matF var) (rowsF x b r) k :=
  pay15_apply (k0_pay14 x var mu) pi b r k (logit (piF pi) (matF mu) (matF var) (rowsF x b r)) fun k' => by
    rw [pay14_apply]; rfl

/-! ## The three accumulators after one tile -/

/-- The sum of the responsibilities over the tile's rows is added to the first accumulator. -/
theorem acc7_apply (x : Vec Ideal S8x1024x64 .f32) (pi : Vec Ideal S64 .f32) (mu var : Vec Ideal S64x64 .f32)
    (xs0 : Vec Ideal S8x64 .f32) (b : Fin 8) (k : Fin 64) :
    k0_pay17 (F := Ideal) (k0_pay14 x var mu) pi xs0 (ix2 b k)
      = xs0 (ix2 b k) + sumQ (piF pi) (matF mu) (matF var) (rowsF x b) k := by
  unfold k0_pay17 sumQ
  rw [shapeCast_self, shapeCast_shapeCast, addf_apply]
  refine congrArg (xs0 (ix2 b k) + ·) ((rowsSum_apply _ _ _ _ b k).trans ?_)
  exact Finset.sum_congr rfl fun r _ => resp_blk x pi mu var b r k

/-- The responsibilities times the data, summed over the tile's rows, are added to the second accumulator. -/
theorem acc8_apply (x : Vec Ideal S8x1024x64 .f32) (pi : Vec Ideal S64 .f32) (mu var : Vec Ideal S64x64 .f32)
    (xs1 : Vec Ideal S8x64x64 .f32) (b : Fin 8) (k d : Fin 64) :
    k0_pay18 (F := Ideal) (k0_pay12 x) (k0_pay14 x var mu) pi xs1 (ix3 b k d)
      = xs1 (ix3 b k d) + sumQx (piF pi) (matF mu) (matF var) (rowsF x b) k d := by
  unfold k0_pay18 sumQx
  rw [shapeCast_self, addf_apply, mm3_apply]
  refine congrArg (xs1 (ix3 b k d) + ·) ?_
  refine Finset.sum_congr rfl fun r _ => ?_
  rw [pay16_apply, pay12_apply, resp_blk]

/-- The responsibilities times the squared data, summed over the tile's rows, are added to the third accumulator. -/
theorem acc9_apply (x : Vec Ideal S8x1024x64 .f32) (pi : Vec Ideal S64 .f32) (mu var : Vec Ideal S64x64 .f32)
    (xs2 : Vec Ideal S8x64x64 .f32) (b : Fin 8) (k d : Fin 64) :
    k0_pay1 (F := Ideal) (k0_pay19 (k0_pay13 x) (k0_pay14 x var mu) pi xs2) (ix3 b k d)
      = xs2 (ix3 b k d) + sumQx2 (piF pi) (matF mu) (matF var) (rowsF x b) k d := by
  unfold k0_pay1 k0_pay19 sumQx2
  rw [shapeCast_self, addf_apply, mm3_apply]
  refine congrArg (xs2 (ix3 b k d) + ·) ?_
  refine Finset.sum_congr rfl fun r _ => ?_
  rw [pay16_apply, pay13_apply, resp_blk]

end Cert.KernelIdeal.Payloads

end
-- ==== Proof.KernelStats.lean ====
/-
  The kernel's stored output block read at an index, against the specification of the Fisher vector.

  From a batch element's three accumulated sums `S0 k`, `S1 k d`, `S2 k d` (the responsibilities, and the
  responsibilities weighted by the features and by their squares, summed over the rows) the kernel forms
  `q k = S0 k / N`, the block `q k − π_k`, the block `S1 k d / N − q k · μ_{k,d}` and the block
  `(((0 − S2 k d / N) − q k · μ²) + q k · σ²) + (2 · (S1 k d / N)) · μ`, lays the two `[64, 64]` blocks out
  row-major as `4096` columns each, and joins the three side by side. Each lemma reads one stage at explicit
  coordinates; a reshape is read through the row-major position of the index, a broadcast through the
  coordinates it keeps, and `0 − a = −a` turns the kernel's subtraction from zero into the negation.
-/
import proofs.«151066_j6837587935988_2_alg».proof.Proof.Gen.KernelIdeal.Skeleton
import proofs.«151066_j6837587935988_2_alg».proof.Proof.FisherSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Stats

open Cert.KernelIdeal Cert.KernelIdeal.Gen Cert.FisherSpec Idealize.ShloMosaic Idealize.ShloMosaic.ValueIdx

variable (pi : Vec Ideal S64 .f32) (mu var : Vec Ideal S64x64 .f32) (a7 : Vec Ideal S8x64 .f32)
  (a8 a9 : Vec Ideal S8x64x64 .f32)

/-! ## The sums divided by the number of rows -/

/-- `S0 k / N`. -/
theorem pay3_at (b : Fin 8) (k : Fin 64) :
    k0_pay3 (F := Ideal) a7 (ix2 b k) = Ideal.div (a7 (ix2 b k)) cN := rfl

/-- `S1 k d / N` (and, of the third accumulator, `S2 k d / N`). -/
theorem pay4_at (a : Vec Ideal S8x64x64 .f32) (b : Fin 8) (k d : Fin 64) :
    k0_pay4 (F := Ideal) a (ix3 b k d) = Ideal.div (a (ix3 b k d)) cN := rfl

/-! ## The layout operations at an index -/

/-- The weights, as one row broadcast down the eight, read at `(b, k)`. -/
theorem bc_pi_at (b : Fin 8) (k : Fin 64) :
    broadcastTo S8x64 (shapeCast S1x64 pi shapeCasts_S64_S1x64) broadcasts_S1x64_S8x64 (ix2 b k) = pi (ix1 k) :=
  (broadcastTo_1b_ab_apply (shapeCast S1x64 pi shapeCasts_S64_S1x64) broadcasts_S1x64_S8x64 b k).trans
    (shapeCast_a_1a_apply pi shapeCasts_S64_S1x64 0 k)

/-- `q` as a `[8, 64, 1]` array read at `(b, k, 0)`. -/
theorem pay6_at (b : Fin 8) (k : Fin 64) (u : Fin 1) :
    k0_pay6 (F := Ideal) a7 (ix3 b k u) = Ideal.div (a7 (ix2 b k)) cN := by
  unfold k0_pay6
  refine (shapeCast_apply (k0_pay3 (F := Ideal) a7) shapeCasts_S8x64_S8x64x1 (ix3 b k u) (ix2 b k) ?_).trans (pay3_at a7 b k)
  rw [Shape.rowMajor_val_two, Shape.rowMajor_val_three]
  have hu : u.val = 0 := by omega
  show b.val * 64 + k.val = (b.val * 64 + k.val) * 1 + u.val
  omega

/-- `q` broadcast along the features, read at `(b, k, d)`. -/
theorem bc_q_at (b : Fin 8) (k d : Fin 64) :
    broadcastTo S8x64x64 (k0_pay6 (F := Ideal) a7) broadcasts_S8x64x1_S8x64x64 (ix3 b k d) = Ideal.div (a7 (ix2 b k)) cN := by
  refine (broadcastTo_apply (k0_pay6 (F := Ideal) a7) broadcasts_S8x64x1_S8x64x64 (ix3 b k d) (ix3 b k (0 : Fin 1)) fun ax => ?_).trans
    (pay6_at a7 b k 0)
  match ax with
  | ⟨0, _⟩ => rfl
  | ⟨1, _⟩ => rfl
  | ⟨2, _⟩ => rfl

/-- A `[64, 64]` parameter broadcast over the batch elements, read at `(b, k, d)`. -/
theorem bc_mat_at (m : FVec Ideal S64x64 .f32) (b : Fin 8) (k d : Fin 64) :
    broadcastTo S8x64x64 (shapeCast S1x64x64 m shapeCasts_S64x64_S1x64x64) broadcasts_S1x64x64_S8x64x64 (ix3 b k d) = m (ix2 k d) := by
  refine (broadcastTo_apply (shapeCast S1x64x64 m shapeCasts_S64x64_S1x64x64) broadcasts_S1x64x64_S8x64x64 (ix3 b k d)
    (ix3 (0 : Fin 1) k d) fun ax => ?_).trans (shapeCast_ab_1ab_apply m shapeCasts_S64x64_S1x64x64 0 k d)
  match ax with
  | ⟨0, _⟩ => rfl
  | ⟨1, _⟩ => rfl
  | ⟨2, _⟩ => rfl

/-- Row-major position `64·k + d` of a `[64, 64]` block of batch element `b` is `(b, k, d)`. -/
theorem flat_at (y : FVec Ideal S8x64x64 .f32) (b : Fin 8) (k d : Fin 64) (h : 64 * k.val + d.val < 4096) :
    shapeCast S8x4096 y shapeCasts_S8x64x64_S8x4096 (ix2 b (⟨64 * k.val + d.val, h⟩ : Fin 4096)) = y (ix3 b k d) := by
  refine shapeCast_apply y shapeCasts_S8x64x64_S8x4096 _ (ix3 b k d) ?_
  rw [Shape.rowMajor_val_three, Shape.rowMajor_val_two]
  show (b.val * 64 + k.val) * 64 + d.val = b.val * 4096 + (64 * k.val + d.val)
  omega

/-! ## The three blocks -/

/-- The first block: `S0 k / N − π_k`. -/
theorem pay5_at (b : Fin 8) (k : Fin 64) :
    k0_pay5 (F := Ideal) a7 pi (ix2 b k) = dPi (fun k => pi (ix1 k)) (fun k => a7 (ix2 b k)) k := by
  unfold k0_pay5
  show k0_pay3 (F := Ideal) a7 (ix2 b k)
      - broadcastTo S8x64 (shapeCast S1x64 pi shapeCasts_S64_S1x64) broadcasts_S1x64_S8x64 (ix2 b k) = _
  rw [bc_pi_at]
  rfl

/-- The second block: `S1 k d / N − (S0 k / N) · μ_{k,d}`. -/
theorem pay7_at (b : Fin 8) (k d : Fin 64) (h : 64 * k.val + d.val < 4096) :
    k0_pay7 (F := Ideal) a7 a8 mu (ix2 b (⟨64 * k.val + d.val, h⟩ : Fin 4096))
      = dMu (fun k d => mu (ix2 k d)) (fun k => a7 (ix2 b k)) (fun k d => a8 (ix3 b k d)) k d := by
  unfold k0_pay7
  refine (flat_at _ b k d h).trans ?_
  show k0_pay4 (F := Ideal) a8 (ix3 b k d)
      - broadcastTo S8x64x64 (k0_pay6 (F := Ideal) a7) broadcasts_S8x64x1_S8x64x64 (ix3 b k d)
        * broadcastTo S8x64x64 (shapeCast S1x64x64 mu shapeCasts_S64x64_S1x64x64) broadcasts_S1x64x64_S8x64x64 (ix3 b k d) = _
  rw [bc_q_at, bc_mat_at]
  rfl

/-- The third block: `((−S2 k d / N − (S0 k / N) · μ²) + (S0 k / N) · σ²) + (2 · S1 k d / N) · μ`. -/
theorem pay8_at (b : Fin 8) (k d : Fin 64) (h : 64 * k.val + d.val < 4096) :
    k0_pay8 (F := Ideal) a7 a8 a9 mu var (ix2 b (⟨64 * k.val + d.val, h⟩ : Fin 4096))
      = dSigma (fun k d => mu (ix2 k d)) (fun k d => var (ix2 k d)) (fun k => a7 (ix2 b k)) (fun k d => a8 (ix3 b k d))
          (fun k d => a9 (ix3 b k d)) k d := by
  unfold k0_pay8
  refine (flat_at _ b k d h).trans ?_
  show (((Ideal.ofBits .f32 0x00000000#32 - Ideal.div (a9 (ix3 b k d)) cN)
        - broadcastTo S8x64x64 (k0_pay6 (F := Ideal) a7) broadcasts_S8x64x1_S8x64x64 (ix3 b k d)
          * broadcastTo S8x64x64 (shapeCast S1x64x64 (mulf mu mu) shapeCasts_S64x64_S1x64x64) broadcasts_S1x64x64_S8x64x64 (ix3 b k d))
      + broadcastTo S8x64x64 (k0_pay6 (F := Ideal) a7) broadcasts_S8x64x1_S8x64x64 (ix3 b k d)
          * broadcastTo S8x64x64 (shapeCast S1x64x64 var shapeCasts_S64x64_S1x64x64) broadcasts_S1x64x64_S8x64x64 (ix3 b k d))
      + (cTwo * k0_pay4 (F := Ideal) a8 (ix3 b k d))
          * broadcastTo S8x64x64 (shapeCast S1x64x64 mu shapeCasts_S64x64_S1x64x64) broadcasts_S1x64x64_S8x64x64 (ix3 b k d) = _
  rw [bc_q_at, bc_mat_at, bc_mat_at, bc_mat_at, Ideal.ofBits_zero_f32, zero_sub]
  rfl

/-! ## The concatenation -/

/-- Columns `0 … 63` of the stored block are the first piece. -/
theorem pay2_piece0 (u0 : FVec Ideal S8x64 .f32) (u1 u2 : FVec Ideal S8x4096 .f32) (b : Fin 8) (k : Fin 64) (h : k.val < 8256) :
    k0_pay2 (F := Ideal) u0 u1 u2 (ix2 b (⟨k.val, h⟩ : Fin 8256)) = u0 (ix2 b k) := by
  unfold k0_pay2
  exact concatenate_apply_piece (1 : Fin S8x8256.rank) [⟨S8x64, u0⟩, ⟨S8x4096, u1⟩, ⟨S8x4096, u2⟩]
    concatenates_S8x64_S8x4096_S8x4096_S8x8256_d1 (ix2 b (⟨k.val, h⟩ : Fin 8256)) 0 (by show (0 : Nat) < 3; omega) S8x64 u0 rfl rfl 0 rfl
    (ix2 b k) (fun c hc => by match c with | ⟨0, _⟩ => rfl | ⟨1, _⟩ => exact absurd rfl hc) (Nat.zero_add _)

/-- Columns `64 … 4159` are the second piece. -/
theorem pay2_piece1 (u0 : FVec Ideal S8x64 .f32) (u1 u2 : FVec Ideal S8x4096 .f32) (b : Fin 8) (c : Fin 4096) (h : 64 + c.val < 8256) :
    k0_pay2 (F := Ideal) u0 u1 u2 (ix2 b (⟨64 + c.val, h⟩ : Fin 8256)) = u1 (ix2 b c) := by
  unfold k0_pay2
  exact concatenate_apply_piece (1 : Fin S8x8256.rank) [⟨S8x64, u0⟩, ⟨S8x4096, u1⟩, ⟨S8x4096, u2⟩]
    concatenates_S8x64_S8x4096_S8x4096_S8x8256_d1 (ix2 b (⟨64 + c.val, h⟩ : Fin 8256)) 1 (by show (1 : Nat) < 3; omega) S8x4096 u1 rfl rfl 64 rfl
    (ix2 b c) (fun e he => by match e with | ⟨0, _⟩ => rfl | ⟨1, _⟩ => exact absurd rfl he) rfl

/-- Columns `4160 … 8255` are the third piece. -/
theorem pay2_piece2 (u0 : FVec Ideal S8x64 .f32) (u1 u2 : FVec Ideal S8x4096 .f32) (b : Fin 8) (c : Fin 4096) (h : 4160 + c.val < 8256) :
    k0_pay2 (F := Ideal) u0 u1 u2 (ix2 b (⟨4160 + c.val, h⟩ : Fin 8256)) = u2 (ix2 b c) := by
  unfold k0_pay2
  exact concatenate_apply_piece (1 : Fin S8x8256.rank) [⟨S8x64, u0⟩, ⟨S8x4096, u1⟩, ⟨S8x4096, u2⟩]
    concatenates_S8x64_S8x4096_S8x4096_S8x8256_d1 (ix2 b (⟨4160 + c.val, h⟩ : Fin 8256)) 2 (by show (2 : Nat) < 3; omega) S8x4096 u2 rfl rfl 4160 rfl
    (ix2 b c) (fun e he => by match e with | ⟨0, _⟩ => rfl | ⟨1, _⟩ => exact absurd rfl he) rfl

theorem lt_dPi (k : Fin 64) : k.val < 8256 := by have := k.isLt; omega
theorem lt_blk (k d : Fin 64) : 64 * k.val + d.val < 4096 := by have := k.isLt; have := d.isLt; omega
theorem lt_dMu (k d : Fin 64) : 64 + (64 * k.val + d.val) < 8256 := by have := k.isLt; have := d.isLt; omega
theorem lt_dSigma (k d : Fin 64) : 4160 + (64 * k.val + d.val) < 8256 := by have := k.isLt; have := d.isLt; omega

/-- **The weights' block of the stored output.** -/
theorem out_dPi (b : Fin 8) (k : Fin 64) :
    k0_pay2 (F := Ideal) (k0_pay5 (F := Ideal) a7 pi) (k0_pay7 (F := Ideal) a7 a8 mu) (k0_pay8 (F := Ideal) a7 a8 a9 mu var)
        (ix2 b (⟨k.val, lt_dPi k⟩ : Fin 8256))
      = dPi (fun k => pi (ix1 k)) (fun k => a7 (ix2 b k)) k :=
  (pay2_piece0 _ _ _ b k _).trans (pay5_at pi a7 b k)

/-- **The means' block of the stored output.** -/
theorem out_dMu (b : Fin 8) (k d : Fin 64) :
    k0_pay2 (F := Ideal) (k0_pay5 (F := Ideal) a7 pi) (k0_pay7 (F := Ideal) a7 a8 mu) (k0_pay8 (F := Ideal) a7 a8 a9 mu var)
        (ix2 b (⟨64 + (64 * k.val + d.val), lt_dMu k d⟩ : Fin 8256))
      = dMu (fun k d => mu (ix2 k d)) (fun k => a7 (ix2 b k)) (fun k d => a8 (ix3 b k d)) k d :=
  (pay2_piece1 _ _ _ b (⟨64 * k.val + d.val, lt_blk k d⟩ : Fin 4096) _).trans (pay7_at mu a7 a8 b k d _)

/-- **The variances' block of the stored output.** -/
theorem out_dSigma (b : Fin 8) (k d : Fin 64) :
    k0_pay2 (F := Ideal) (k0_pay5 (F := Ideal) a7 pi) (k0_pay7 (F := Ideal) a7 a8 mu) (k0_pay8 (F := Ideal) a7 a8 a9 mu var)
        (ix2 b (⟨4160 + (64 * k.val + d.val), lt_dSigma k d⟩ : Fin 8256))
      = dSigma (fun k d => mu (ix2 k d)) (fun k d => var (ix2 k d)) (fun k => a7 (ix2 b k)) (fun k d => a8 (ix3 b k d))
          (fun k d => a9 (ix3 b k d)) k d :=
  (pay2_piece2 _ _ _ b (⟨64 * k.val + d.val, lt_blk k d⟩ : Fin 4096) _).trans (pay8_at mu var a7 a8 a9 b k d _)

end Cert.KernelIdeal.Stats

end
-- ==== Proof.KernelFold.lean ====
/-
  The fold over the grid: what the kernel's result array ends holding.

  For one batch block the 16 grid points of its tiles run in order. Three accumulators live in scratch memory across
  them: the sum over the rows seen so far of the responsibilities, of responsibility × feature, and of responsibility ×
  squared feature. THE INVARIANT (`acc_inv`, by induction on the grid point): after tile `j` of batch block `q` the
  accumulators hold, for block row `b`, the sums over the tiles `0 … j` of the tile's three weighted sums — the first
  tile stores zeros, reads them back and adds its sums (`0 + s₀`), every later tile adds its own. After the last tile
  the sixteen tile sums are the sums over all 16384 rows of the batch row: re-association of a finite sum
  (`tiles_sum`, over FisherSpec's `sum_tiles`), true in any commutative monoid, so at the infinities too. At that point
  the body also stores the output block: the three statistics of the accumulators it has just updated, which is row
  `8q + b` of the Fisher vector (`block_at`). The two write-backs, one per batch block, cover the result array
  (`final`), and the frame's run re-posted says so (`run`).
-/
import proofs.«151066_j6837587935988_2_alg».proof.Proof.Gen.KernelIdeal.Value
import proofs.«151066_j6837587935988_2_alg».proof.Proof.KernelPieces
import proofs.«151066_j6837587935988_2_alg».proof.Proof.KernelBlocks
import proofs.«151066_j6837587935988_2_alg».proof.Proof.KernelPayloads
import proofs.«151066_j6837587935988_2_alg».proof.Proof.KernelStats
import proofs.«151066_j6837587935988_2_alg».proof.Proof.FisherSpec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Pieces Cert.KernelIdeal.Blocks Cert.KernelIdeal.Payloads Cert.FisherSpec

variable (m : (ℓ : Loc nD τ sig) → Buf (Elt Ideal) ℓ) (ρ : Dev nD → PrngReg)

/-- The four argument arrays, as functions of their indices. -/
abbrev xA (c : Dev nD) : (⟨3, ![16, 16384, 64]⟩ : Shape).Idx → EReal := m ((c : Thread nD τ).loc main_arg0)
abbrev piA (c : Dev nD) : (⟨1, ![64]⟩ : Shape).Idx → EReal := m ((c : Thread nD τ).loc main_arg1)
abbrev muA (c : Dev nD) : (⟨2, ![64, 64]⟩ : Shape).Idx → EReal := m ((c : Thread nD τ).loc main_arg2)
abbrev varA (c : Dev nD) : (⟨2, ![64, 64]⟩ : Shape).Idx → EReal := m ((c : Thread nD τ).loc main_arg3)

/-- Row `b` of batch block `t / 16`, as a row of the whole batch axis. -/
abbrev rowAt (t : Fin cfg0.N) (b : Fin 8) : Fin 16 :=
  ⟨8 * (t.val / 16) + b.val, by have := t.isLt; have := N_eq; have := b.isLt; omega⟩

/-- The 1024 rows of tile `j` of batch block `q`, block row `b` (zero outside the grid, where nothing reads it). -/
def tileRows (xa : (⟨3, ![16, 16384, 64]⟩ : Shape).Idx → EReal) (q j : Nat) (b : Fin 8) : Fin 1024 → Fin 64 → EReal :=
  fun r d => if h : q < 2 ∧ j < 16 then
      xa (ix3 (⟨8 * q + b.val, by have := b.isLt; omega⟩ : Fin 16) (⟨1024 * j + r.val, by have := r.isLt; omega⟩ : Fin 16384) d)
    else 0

/-- The data block at point `t` holds the rows of tile `t % 16` of batch block `t / 16`. -/
theorem rows_iblk (c : Dev nD) (t : Fin cfg0.N) (b : Fin 8) :
    rowsF (iblk m c 0 t) b = tileRows (xA m c) (t.val / 16) (t.val % 16) b := by
  funext r d
  have ht := t.isLt; have hN := N_eq
  refine (iblk0_apply m c t b r d).trans ?_
  unfold tileRows
  rw [dif_pos ⟨by omega, by omega⟩]

theorem piF_iblk (c : Dev nD) (t : Fin cfg0.N) : piF (iblk m c 1 t) = vecOf (piA m c) :=
  funext fun k => congrFun (iblk1_eq m c t) (ix1 k)
theorem matF_iblk2 (c : Dev nD) (t : Fin cfg0.N) : matF (iblk m c 2 t) = matOf (muA m c) :=
  funext fun k => funext fun d => congrFun (iblk2_eq m c t) (ix2 k d)
theorem matF_iblk3 (c : Dev nD) (t : Fin cfg0.N) : matF (iblk m c 3 t) = matOf (varA m c) :=
  funext fun k => funext fun d => congrFun (iblk3_eq m c t) (ix2 k d)

/-- The zero blocks the first tile stores are zero at every entry. -/
theorem zero7 (i : S8x64.Idx) : k0_pay9 (F := Ideal) i = 0 := by
  unfold k0_pay9; rw [shapeCast_self]; exact Ideal.ofBits_zero_f32
theorem zero8 (i : S8x64x64.Idx) : k0_pay10 (F := Ideal) i = 0 := by
  unfold k0_pay10; rw [shapeCast_self]; exact Ideal.ofBits_zero_f32
theorem zero9 (i : S8x64x64.Idx) : k0_pay11 (F := Ideal) i = 0 := by
  unfold k0_pay11; rw [shapeCast_self]; exact Ideal.ofBits_zero_f32

/-- The sixteen tile sums of a batch row add up to the sum over all its 16384 rows: re-association. -/
theorem tiles_sum (xa : (⟨3, ![16, 16384, 64]⟩ : Shape).Idx → EReal) (q : Nat) (hq : q < 2) (b : Fin 8)
    (f : (Fin 64 → EReal) → EReal) :
    ∑ j ∈ Finset.range 16, ∑ r : Fin 1024, f (tileRows xa q j b r)
      = ∑ n : Fin 16384, f (rowOf xa (⟨8 * q + b.val, by have := b.isLt; omega⟩ : Fin 16) n) := by
  rw [Finset.sum_range]
  refine Eq.symm ((sum_tiles 16 1024 (fun n : Fin (16 * 1024) => f (rowOf xa (⟨8 * q + b.val, by have := b.isLt; omega⟩ : Fin 16) n))).trans ?_)
  refine Finset.sum_congr rfl fun j _ => Finset.sum_congr rfl fun r _ => ?_
  refine congrArg f (funext fun d => ?_)
  unfold tileRows
  rw [dif_pos ⟨hq, j.isLt⟩]

/-- THE INVARIANT at the first tile of a batch block: each accumulator holds the first tile's sum. -/
theorem first_tile (c : Dev nD) (t : Fin cfg0.N) (h0 : t.val % 16 = 0) (b : Fin 8) (k d : Fin 64) :
    (outsAt0 m c t.val t.isLt).2.1 (ix2 b k)
        = ∑ j ∈ Finset.range (t.val % 16 + 1), sumQ (vecOf (piA m c)) (matOf (muA m c)) (matOf (varA m c)) (tileRows (xA m c) (t.val / 16) j b) k
    ∧ (outsAt0 m c t.val t.isLt).2.2.1 (ix3 b k d)
        = ∑ j ∈ Finset.range (t.val % 16 + 1), sumQx (vecOf (piA m c)) (matOf (muA m c)) (matOf (varA m c)) (tileRows (xA m c) (t.val / 16) j b) k d
    ∧ (outsAt0 m c t.val t.isLt).2.2.2 (ix3 b k d)
        = ∑ j ∈ Finset.range (t.val % 16 + 1), sumQx2 (vecOf (piA m c)) (matOf (muA m c)) (matOf (varA m c)) (tileRows (xA m c) (t.val / 16) j b) k d := by
  have h1 : ¬t.val % 16 = 15 := by omega
  have hrow := rows_iblk m c t b
  rw [h0] at hrow
  have hr : Finset.range (t.val % 16 + 1) = Finset.range 1 := by rw [h0]
  rw [hr, Finset.sum_range_one, Finset.sum_range_one, Finset.sum_range_one]
  rw [outsAt0_A m c t h0 h1]
  dsimp only
  refine ⟨?_, ?_, ?_⟩
  · refine (congrFun (sout_A_0 (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (hc0 := (hcond0_0 t).mpr h0) (hc1 := fun h => h1 ((hcond0_1 t).mp h))) (ix2 b k)).trans ?_
    refine (acc7_apply (x := iblk m c 0 t) (pi := iblk m c 1 t) (mu := iblk m c 2 t) (var := iblk m c 3 t) (xs0 := (k0_pay9 (F := Ideal))) b k).trans ?_
    rw [zero7, zero_add, piF_iblk, matF_iblk2, matF_iblk3, hrow]
  · refine (congrFun (sout_A_1 (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (hc0 := (hcond0_0 t).mpr h0) (hc1 := fun h => h1 ((hcond0_1 t).mp h))) (ix3 b k d)).trans ?_
    refine (acc8_apply (x := iblk m c 0 t) (pi := iblk m c 1 t) (mu := iblk m c 2 t) (var := iblk m c 3 t) (xs1 := (k0_pay10 (F := Ideal))) b k d).trans ?_
    rw [zero8, zero_add, piF_iblk, matF_iblk2, matF_iblk3, hrow]
  · refine (congrFun (sout_A_2 (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (hc0 := (hcond0_0 t).mpr h0) (hc1 := fun h => h1 ((hcond0_1 t).mp h))) (ix3 b k d)).trans ?_
    refine (acc9_apply (x := iblk m c 0 t) (pi := iblk m c 1 t) (mu := iblk m c 2 t) (var := iblk m c 3 t) (xs2 := (k0_pay11 (F := Ideal))) b k d).trans ?_
    rw [zero9, zero_add, piF_iblk, matF_iblk2, matF_iblk3, hrow]

/-- THE INVARIANT one tile on (not a first tile): each accumulator gains the tile's sum. -/
theorem next_tile (c : Dev nD) (n : ℕ) (h : n + 1 < cfg0.N) (h0 : ¬(n + 1) % 16 = 0)
    (ih : ∀ (b : Fin 8) (k d : Fin 64), (outsAt0 m c n (Nat.lt_of_succ_lt h)).2.1 (ix2 b k)
        = ∑ j ∈ Finset.range (n % 16 + 1), sumQ (vecOf (piA m c)) (matOf (muA m c)) (matOf (varA m c)) (tileRows (xA m c) (n / 16) j b) k
    ∧ (outsAt0 m c n (Nat.lt_of_succ_lt h)).2.2.1 (ix3 b k d)
        = ∑ j ∈ Finset.range (n % 16 + 1), sumQx (vecOf (piA m c)) (matOf (muA m c)) (matOf (varA m c)) (tileRows (xA m c) (n / 16) j b) k d
    ∧ (outsAt0 m c n (Nat.lt_of_succ_lt h)).2.2.2 (ix3 b k d)
        = ∑ j ∈ Finset.range (n % 16 + 1), sumQx2 (vecOf (piA m c)) (matOf (muA m c)) (matOf (varA m c)) (tileRows (xA m c) (n / 16) j b) k d)
    (b : Fin 8) (k d : Fin 64) :
    (outsAt0 m c (n + 1) h).2.1 (ix2 b k)
        = ∑ j ∈ Finset.range ((n + 1) % 16 + 1), sumQ (vecOf (piA m c)) (matOf (muA m c)) (matOf (varA m c)) (tileRows (xA m c) ((n + 1) / 16) j b) k
    ∧ (outsAt0 m c (n + 1) h).2.2.1 (ix3 b k d)
        = ∑ j ∈ Finset.range ((n + 1) % 16 + 1), sumQx (vecOf (piA m c)) (matOf (muA m c)) (matOf (varA m c)) (tileRows (xA m c) ((n + 1) / 16) j b) k d
    ∧ (outsAt0 m c (n + 1) h).2.2.2 (ix3 b k d)
        = ∑ j ∈ Finset.range ((n + 1) % 16 + 1), sumQx2 (vecOf (piA m c)) (matOf (muA m c)) (matOf (varA m c)) (tileRows (xA m c) ((n + 1) / 16) j b) k d := by
  have hq : (n + 1) / 16 = n / 16 := by omega
  have hj : (n + 1) % 16 = n % 16 + 1 := by omega
  have hrow := rows_iblk m c (⟨n + 1, h⟩ : Fin cfg0.N) b
  have hrow' : rowsF (iblk m c 0 (⟨n + 1, h⟩ : Fin cfg0.N)) b = tileRows (xA m c) (n / 16) (n % 16 + 1) b := by
    rw [hrow]; show tileRows (xA m c) ((n + 1) / 16) ((n + 1) % 16) b = _; rw [hq, hj]
  clear hrow
  have hrow := hrow'
  rw [hq, hj, Finset.sum_range_succ _ (n % 16 + 1), Finset.sum_range_succ _ (n % 16 + 1), Finset.sum_range_succ _ (n % 16 + 1)]
  by_cases h1 : (n + 1) % 16 = 15
  ·
    rw [outsAt0_C m c (⟨n + 1, h⟩ : Fin cfg0.N) h0 h1]
    dsimp only
    refine ⟨?_, ?_, ?_⟩
    · refine (congrFun (sout_C_0 (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := scM0_0) (harg7 := Memref.isWhole_whole _) (arg8 := scM0_1) (harg8 := Memref.isWhole_whole _) (arg9 := scM0_2) (harg9 := Memref.isWhole_whole _) (x0 := iblk m c 0 (⟨n + 1, h⟩ : Fin cfg0.N)) (x1 := iblk m c 1 (⟨n + 1, h⟩ : Fin cfg0.N)) (x2 := iblk m c 2 (⟨n + 1, h⟩ : Fin cfg0.N)) (x3 := iblk m c 3 (⟨n + 1, h⟩ : Fin cfg0.N)) (xs0 := (outsAt0 m c ((⟨n + 1, h⟩ : Fin cfg0.N).val - 1) (Nat.lt_of_le_of_lt (Nat.sub_le _ _) (⟨n + 1, h⟩ : Fin cfg0.N).isLt)).2.1) (xs1 := (outsAt0 m c ((⟨n + 1, h⟩ : Fin cfg0.N).val - 1) (Nat.lt_of_le_of_lt (Nat.sub_le _ _) (⟨n + 1, h⟩ : Fin cfg0.N).isLt)).2.2.1) (xs2 := (outsAt0 m c ((⟨n + 1, h⟩ : Fin cfg0.N).val - 1) (Nat.lt_of_le_of_lt (Nat.sub_le _ _) (⟨n + 1, h⟩ : Fin cfg0.N).isLt)).2.2.2) (hc0 := fun hh => h0 ((hcond0_0 (⟨n + 1, h⟩ : Fin cfg0.N)).mp hh)) (hc1 := (hcond0_1 (⟨n + 1, h⟩ : Fin cfg0.N)).mpr h1)) (ix2 b k)).trans ?_
      refine (acc7_apply (x := iblk m c 0 (⟨n + 1, h⟩ : Fin cfg0.N)) (pi := iblk m c 1 (⟨n + 1, h⟩ : Fin cfg0.N)) (mu := iblk m c 2 (⟨n + 1, h⟩ : Fin cfg0.N)) (var := iblk m c 3 (⟨n + 1, h⟩ : Fin cfg0.N)) (xs0 := (outsAt0 m c ((⟨n + 1, h⟩ : Fin cfg0.N).val - 1) (Nat.lt_of_le_of_lt (Nat.sub_le _ _) (⟨n + 1, h⟩ : Fin cfg0.N).isLt)).2.1) b k).trans ?_
      rw [piF_iblk, matF_iblk2, matF_iblk3, hrow]
      exact congrArg (· + _) (ih b k d).1
    · refine (congrFun (sout_C_1 (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := scM0_0) (harg7 := Memref.isWhole_whole _) (arg8 := scM0_1) (harg8 := Memref.isWhole_whole _) (arg9 := scM0_2) (harg9 := Memref.isWhole_whole _) (x0 := iblk m c 0 (⟨n + 1, h⟩ : Fin cfg0.N)) (x1 := iblk m c 1 (⟨n + 1, h⟩ : Fin cfg0.N)) (x2 := iblk m c 2 (⟨n + 1, h⟩ : Fin cfg0.N)) (x3 := iblk m c 3 (⟨n + 1, h⟩ : Fin cfg0.N)) (xs0 := (outsAt0 m c ((⟨n + 1, h⟩ : Fin cfg0.N).val - 1) (Nat.lt_of_le_of_lt (Nat.sub_le _ _) (⟨n + 1, h⟩ : Fin cfg0.N).isLt)).2.1) (xs1 := (outsAt0 m c ((⟨n + 1, h⟩ : Fin cfg0.N).val - 1) (Nat.lt_of_le_of_lt (Nat.sub_le _ _) (⟨n + 1, h⟩ : Fin cfg0.N).isLt)).2.2.1) (xs2 := (outsAt0 m c ((⟨n + 1, h⟩ : Fin cfg0.N).val - 1) (Nat.lt_of_le_of_lt (Nat.sub_le _ _) (⟨n + 1, h⟩ : Fin cfg0.N).isLt)).2.2.2) (hc0 := fun hh => h0 ((hcond0_0 (⟨n + 1, h⟩ : Fin cfg0.N)).mp hh)) (hc1 := (hcond0_1 (⟨n + 1, h⟩ : Fin cfg0.N)).mpr h1)) (ix3 b k d)).trans ?_
      refine (acc8_apply (x := iblk m c 0 (⟨n + 1, h⟩ : Fin cfg0.N)) (pi := iblk m c 1 (⟨n + 1, h⟩ : Fin cfg0.N)) (mu := iblk m c 2 (⟨n + 1, h⟩ : Fin cfg0.N)) (var := iblk m c 3 (⟨n + 1, h⟩ : Fin cfg0.N)) (xs1 := (outsAt0 m c ((⟨n + 1, h⟩ : Fin cfg0.N).val - 1) (Nat.lt_of_le_of_lt (Nat.sub_le _ _) (⟨n + 1, h⟩ : Fin cfg0.N).isLt)).2.2.1) b k d).trans ?_
      rw [piF_iblk, matF_iblk2, matF_iblk3, hrow]
      exact congrArg (· + _) (ih b k d).2.1
    · refine (congrFun (sout_C_2 (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := scM0_0) (harg7 := Memref.isWhole_whole _) (arg8 := scM0_1) (harg8 := Memref.isWhole_whole _) (arg9 := scM0_2) (harg9 := Memref.isWhole_whole _) (x0 := iblk m c 0 (⟨n + 1, h⟩ : Fin cfg0.N)) (x1 := iblk m c 1 (⟨n + 1, h⟩ : Fin cfg0.N)) (x2 := iblk m c 2 (⟨n + 1, h⟩ : Fin cfg0.N)) (x3 := iblk m c 3 (⟨n + 1, h⟩ : Fin cfg0.N)) (xs0 := (outsAt0 m c ((⟨n + 1, h⟩ : Fin cfg0.N).val - 1) (Nat.lt_of_le_of_lt (Nat.sub_le _ _) (⟨n + 1, h⟩ : Fin cfg0.N).isLt)).2.1) (xs1 := (outsAt0 m c ((⟨n + 1, h⟩ : Fin cfg0.N).val - 1) (Nat.lt_of_le_of_lt (Nat.sub_le _ _) (⟨n + 1, h⟩ : Fin cfg0.N).isLt)).2.2.1) (xs2 := (outsAt0 m c ((⟨n + 1, h⟩ : Fin cfg0.N).val - 1) (Nat.lt_of_le_of_lt (Nat.sub_le _ _) (⟨n + 1, h⟩ : Fin cfg0.N).isLt)).2.2.2) (hc0 := fun hh => h0 ((hcond0_0 (⟨n + 1, h⟩ : Fin cfg0.N)).mp hh)) (hc1 := (hcond0_1 (⟨n + 1, h⟩ : Fin cfg0.N)).mpr h1)) (ix3 b k d)).trans ?_
      refine (acc9_apply (x := iblk m c 0 (⟨n + 1, h⟩ : Fin cfg0.N)) (pi := iblk m c 1 (⟨n + 1, h⟩ : Fin cfg0.N)) (mu := iblk m c 2 (⟨n + 1, h⟩ : Fin cfg0.N)) (var := iblk m c 3 (⟨n + 1, h⟩ : Fin cfg0.N)) (xs2 := (outsAt0 m c ((⟨n + 1, h⟩ : Fin cfg0.N).val - 1) (Nat.lt_of_le_of_lt (Nat.sub_le _ _) (⟨n + 1, h⟩ : Fin cfg0.N).isLt)).2.2.2) b k d).trans ?_
      rw [piF_iblk, matF_iblk2, matF_iblk3, hrow]
      exact congrArg (· + _) (ih b k d).2.2
  ·
    rw [outsAt0_B m c (⟨n + 1, h⟩ : Fin cfg0.N) h0 h1]
    dsimp only
    refine ⟨?_, ?_, ?_⟩
    · refine (congrFun (sout_B_0 (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := scM0_0) (harg7 := Memref.isWhole_whole _) (arg8 := scM0_1) (harg8 := Memref.isWhole_whole _) (arg9 := scM0_2) (harg9 := Memref.isWhole_whole _) (x0 := iblk m c 0 (⟨n + 1, h⟩ : Fin cfg0.N)) (x1 := iblk m c 1 (⟨n + 1, h⟩ : Fin cfg0.N)) (x2 := iblk m c 2 (⟨n + 1, h⟩ : Fin cfg0.N)) (x3 := iblk m c 3 (⟨n + 1, h⟩ : Fin cfg0.N)) (xs0 := (outsAt0 m c ((⟨n + 1, h⟩ : Fin cfg0.N).val - 1) (Nat.lt_of_le_of_lt (Nat.sub_le _ _) (⟨n + 1, h⟩ : Fin cfg0.N).isLt)).2.1) (xs1 := (outsAt0 m c ((⟨n + 1, h⟩ : Fin cfg0.N).val - 1) (Nat.lt_of_le_of_lt (Nat.sub_le _ _) (⟨n + 1, h⟩ : Fin cfg0.N).isLt)).2.2.1) (xs2 := (outsAt0 m c ((⟨n + 1, h⟩ : Fin cfg0.N).val - 1) (Nat.lt_of_le_of_lt (Nat.sub_le _ _) (⟨n + 1, h⟩ : Fin cfg0.N).isLt)).2.2.2) (hc0 := fun hh => h0 ((hcond0_0 (⟨n + 1, h⟩ : Fin cfg0.N)).mp hh)) (hc1 := fun hh => h1 ((hcond0_1 (⟨n + 1, h⟩ : Fin cfg0.N)).mp hh))) (ix2 b k)).trans ?_
      refine (acc7_apply (x := iblk m c 0 (⟨n + 1, h⟩ : Fin cfg0.N)) (pi := iblk m c 1 (⟨n + 1, h⟩ : Fin cfg0.N)) (mu := iblk m c 2 (⟨n + 1, h⟩ : Fin cfg0.N)) (var := iblk m c 3 (⟨n + 1, h⟩ : Fin cfg0.N)) (xs0 := (outsAt0 m c ((⟨n + 1, h⟩ : Fin cfg0.N).val - 1) (Nat.lt_of_le_of_lt (Nat.sub_le _ _) (⟨n + 1, h⟩ : Fin cfg0.N).isLt)).2.1) b k).trans ?_
      rw [piF_iblk, matF_iblk2, matF_iblk3, hrow]
      exact congrArg (· + _) (ih b k d).1
    · refine (congrFun (sout_B_1 (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := scM0_0) (harg7 := Memref.isWhole_whole _) (arg8 := scM0_1) (harg8 := Memref.isWhole_whole _) (arg9 := scM0_2) (harg9 := Memref.isWhole_whole _) (x0 := iblk m c 0 (⟨n + 1, h⟩ : Fin cfg0.N)) (x1 := iblk m c 1 (⟨n + 1, h⟩ : Fin cfg0.N)) (x2 := iblk m c 2 (⟨n + 1, h⟩ : Fin cfg0.N)) (x3 := iblk m c 3 (⟨n + 1, h⟩ : Fin cfg0.N)) (xs0 := (outsAt0 m c ((⟨n + 1, h⟩ : Fin cfg0.N).val - 1) (Nat.lt_of_le_of_lt (Nat.sub_le _ _) (⟨n + 1, h⟩ : Fin cfg0.N).isLt)).2.1) (xs1 := (outsAt0 m c ((⟨n + 1, h⟩ : Fin cfg0.N).val - 1) (Nat.lt_of_le_of_lt (Nat.sub_le _ _) (⟨n + 1, h⟩ : Fin cfg0.N).isLt)).2.2.1) (xs2 := (outsAt0 m c ((⟨n + 1, h⟩ : Fin cfg0.N).val - 1) (Nat.lt_of_le_of_lt (Nat.sub_le _ _) (⟨n + 1, h⟩ : Fin cfg0.N).isLt)).2.2.2) (hc0 := fun hh => h0 ((hcond0_0 (⟨n + 1, h⟩ : Fin cfg0.N)).mp hh)) (hc1 := fun hh => h1 ((hcond0_1 (⟨n + 1, h⟩ : Fin cfg0.N)).mp hh))) (ix3 b k d)).trans ?_
      refine (acc8_apply (x := iblk m c 0 (⟨n + 1, h⟩ : Fin cfg0.N)) (pi := iblk m c 1 (⟨n + 1, h⟩ : Fin cfg0.N)) (mu := iblk m c 2 (⟨n + 1, h⟩ : Fin cfg0.N)) (var := iblk m c 3 (⟨n + 1, h⟩ : Fin cfg0.N)) (xs1 := (outsAt0 m c ((⟨n + 1, h⟩ : Fin cfg0.N).val - 1) (Nat.lt_of_le_of_lt (Nat.sub_le _ _) (⟨n + 1, h⟩ : Fin cfg0.N).isLt)).2.2.1) b k d).trans ?_
      rw [piF_iblk, matF_iblk2, matF_iblk3, hrow]
      exact congrArg (· + _) (ih b k d).2.1
    · refine (congrFun (sout_B_2 (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := scM0_0) (harg7 := Memref.isWhole_whole _) (arg8 := scM0_1) (harg8 := Memref.isWhole_whole _) (arg9 := scM0_2) (harg9 := Memref.isWhole_whole _) (x0 := iblk m c 0 (⟨n + 1, h⟩ : Fin cfg0.N)) (x1 := iblk m c 1 (⟨n + 1, h⟩ : Fin cfg0.N)) (x2 := iblk m c 2 (⟨n + 1, h⟩ : Fin cfg0.N)) (x3 := iblk m c 3 (⟨n + 1, h⟩ : Fin cfg0.N)) (xs0 := (outsAt0 m c ((⟨n + 1, h⟩ : Fin cfg0.N).val - 1) (Nat.lt_of_le_of_lt (Nat.sub_le _ _) (⟨n + 1, h⟩ : Fin cfg0.N).isLt)).2.1) (xs1 := (outsAt0 m c ((⟨n + 1, h⟩ : Fin cfg0.N).val - 1) (Nat.lt_of_le_of_lt (Nat.sub_le _ _) (⟨n + 1, h⟩ : Fin cfg0.N).isLt)).2.2.1) (xs2 := (outsAt0 m c ((⟨n + 1, h⟩ : Fin cfg0.N).val - 1) (Nat.lt_of_le_of_lt (Nat.sub_le _ _) (⟨n + 1, h⟩ : Fin cfg0.N).isLt)).2.2.2) (hc0 := fun hh => h0 ((hcond0_0 (⟨n + 1, h⟩ : Fin cfg0.N)).mp hh)) (hc1 := fun hh => h1 ((hcond0_1 (⟨n + 1, h⟩ : Fin cfg0.N)).mp hh))) (ix3 b k d)).trans ?_
      refine (acc9_apply (x := iblk m c 0 (⟨n + 1, h⟩ : Fin cfg0.N)) (pi := iblk m c 1 (⟨n + 1, h⟩ : Fin cfg0.N)) (mu := iblk m c 2 (⟨n + 1, h⟩ : Fin cfg0.N)) (var := iblk m c 3 (⟨n + 1, h⟩ : Fin cfg0.N)) (xs2 := (outsAt0 m c ((⟨n + 1, h⟩ : Fin cfg0.N).val - 1) (Nat.lt_of_le_of_lt (Nat.sub_le _ _) (⟨n + 1, h⟩ : Fin cfg0.N).isLt)).2.2.2) b k d).trans ?_
      rw [piF_iblk, matF_iblk2, matF_iblk3, hrow]
      exact congrArg (· + _) (ih b k d).2.2

/-- THE INVARIANT, at every grid point `n`: after tile `n % 16` of batch block `n / 16`, the three accumulators hold,
    for block row `b`, the sums over the tiles `0 … n % 16` of the tile's three weighted sums — by induction on the
    point, never by enumerating the grid. -/
theorem acc_inv (c : Dev nD) : ∀ (n : ℕ) (h : n < cfg0.N) (b : Fin 8) (k d : Fin 64),
    (outsAt0 m c n h).2.1 (ix2 b k)
        = ∑ j ∈ Finset.range (n % 16 + 1), sumQ (vecOf (piA m c)) (matOf (muA m c)) (matOf (varA m c)) (tileRows (xA m c) (n / 16) j b) k
    ∧ (outsAt0 m c n h).2.2.1 (ix3 b k d)
        = ∑ j ∈ Finset.range (n % 16 + 1), sumQx (vecOf (piA m c)) (matOf (muA m c)) (matOf (varA m c)) (tileRows (xA m c) (n / 16) j b) k d
    ∧ (outsAt0 m c n h).2.2.2 (ix3 b k d)
        = ∑ j ∈ Finset.range (n % 16 + 1), sumQx2 (vecOf (piA m c)) (matOf (muA m c)) (matOf (varA m c)) (tileRows (xA m c) (n / 16) j b) k d := by
  intro n
  induction n with
  | zero => intro h b k d; exact first_tile m c ⟨0, h⟩ rfl b k d
  | succ n ih =>
    intro h b k d
    by_cases h0 : (n + 1) % 16 = 0
    · exact first_tile m c ⟨n + 1, h⟩ h0 b k d
    · exact next_tile m c n h h0 (ih (Nat.lt_of_succ_lt h)) b k d

/-- After the last tile of a batch block the accumulators hold the three weighted sums over ALL 16384 rows of the batch
    row: the sixteen tile sums re-associated (`tiles_sum`). -/
theorem acc_last (c : Dev nD) (t : Fin cfg0.N) (h1 : t.val % 16 = 15) (b : Fin 8) (k d : Fin 64) :
    (outsAt0 m c t.val t.isLt).2.1 (ix2 b k) = S0 (xA m c) (piA m c) (muA m c) (varA m c) (rowAt t b) k
    ∧ (outsAt0 m c t.val t.isLt).2.2.1 (ix3 b k d) = S1 (xA m c) (piA m c) (muA m c) (varA m c) (rowAt t b) k d
    ∧ (outsAt0 m c t.val t.isLt).2.2.2 (ix3 b k d) = S2 (xA m c) (piA m c) (muA m c) (varA m c) (rowAt t b) k d := by
  have ht := t.isLt; have hN := N_eq
  have hq : t.val / 16 < 2 := by omega
  obtain ⟨e0, e1, e2⟩ := acc_inv m c t.val t.isLt b k d
  have hr : Finset.range (t.val % 16 + 1) = Finset.range 16 := by rw [h1]
  rw [hr] at e0 e1 e2
  refine ⟨e0.trans ?_, e1.trans ?_, e2.trans ?_⟩
  · exact tiles_sum (xA m c) (t.val / 16) hq b (fun row => resp (vecOf (piA m c)) (matOf (muA m c)) (matOf (varA m c)) row k)
  · exact tiles_sum (xA m c) (t.val / 16) hq b (fun row => resp (vecOf (piA m c)) (matOf (muA m c)) (matOf (varA m c)) row k * row d)
  · exact tiles_sum (xA m c) (t.val / 16) hq b (fun row => resp (vecOf (piA m c)) (matOf (muA m c)) (matOf (varA m c)) row k * (row d * row d))

/-- Every column of a row of 8256 entries is entry `k` of the first 64, or entry `64k + d` of the second or of the
    third stretch of 4096. -/
theorem col_cases (j : Fin 8256) :
    (∃ k : Fin 64, j = (⟨k.val, by have := k.isLt; omega⟩ : Fin 8256))
    ∨ (∃ k d : Fin 64, j = (⟨64 + (64 * k.val + d.val), by have := k.isLt; have := d.isLt; omega⟩ : Fin 8256))
    ∨ (∃ k d : Fin 64, j = (⟨4160 + (64 * k.val + d.val), by have := k.isLt; have := d.isLt; omega⟩ : Fin 8256)) := by
  have hj : j.val < 8256 := j.isLt
  by_cases h1 : j.val < 64
  · exact Or.inl ⟨⟨j.val, h1⟩, Fin.ext rfl⟩
  · by_cases h2 : j.val < 4160
    · refine Or.inr (Or.inl ⟨⟨(j.val - 64) / 64, by omega⟩, ⟨(j.val - 64) % 64, Nat.mod_lt _ (by decide)⟩, Fin.ext ?_⟩)
      show j.val = 64 + (64 * ((j.val - 64) / 64) + (j.val - 64) % 64)
      have := Nat.div_add_mod (j.val - 64) 64
      omega
    · refine Or.inr (Or.inr ⟨⟨(j.val - 4160) / 64, by omega⟩, ⟨(j.val - 4160) % 64, Nat.mod_lt _ (by decide)⟩, Fin.ext ?_⟩)
      show j.val = 4160 + (64 * ((j.val - 4160) / 64) + (j.val - 4160) % 64)
      have := Nat.div_add_mod (j.val - 4160) 64
      omega

/-- The output block the last tile of a batch block stores (the frame's term for it, at the point's memrefs and
    input blocks, over the accumulators the tile before left). -/
def outC (c : Dev nD) (t : Fin cfg0.N) (h0 : ¬t.val % 16 = 0) (h1 : t.val % 16 = 15) : Vec Ideal S8x8256 .f32 :=
  out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

set_option maxHeartbeats 1000000 in
/-- At the last tile of a batch block, accumulator 0 after the point is the tile's update of what the tile before left. -/
theorem accC_0 (c : Dev nD) (t : Fin cfg0.N) (h0 : ¬t.val % 16 = 0) (h1 : t.val % 16 = 15) :
    (outsAt0 m c t.val t.isLt).2.1 = k0_pay17 (k0_pay14 (iblk m c 0 t) (iblk m c 3 t) (iblk m c 2 t)) (iblk m c 1 t) (outsAt0 m c (t.val - 1) (Nat.lt_of_le_of_lt (Nat.sub_le _ _) t.isLt)).2.1 :=
  (congrArg (fun p => p.2.1) (outsAt0_C m c t h0 h1)).trans (sout_C_0 (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun hh => h0 ((hcond0_0 t).mp hh)) (hc1 := (hcond0_1 t).mpr h1))

set_option maxHeartbeats 1000000 in
/-- At the last tile of a batch block, accumulator 1 after the point is the tile's update of what the tile before left. -/
theorem accC_1 (c : Dev nD) (t : Fin cfg0.N) (h0 : ¬t.val % 16 = 0) (h1 : t.val % 16 = 15) :
    (outsAt0 m c t.val t.isLt).2.2.1 = k0_pay18 (k0_pay12 (iblk m c 0 t)) (k0_pay14 (iblk m c 0 t) (iblk m c 3 t) (iblk m c 2 t)) (iblk m c 1 t) (outsAt0 m c (t.val - 1) (Nat.lt_of_le_of_lt (Nat.sub_le _ _) t.isLt)).2.2.1 :=
  (congrArg (fun p => p.2.2.1) (outsAt0_C m c t h0 h1)).trans (sout_C_1 (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun hh => h0 ((hcond0_0 t).mp hh)) (hc1 := (hcond0_1 t).mpr h1))

set_option maxHeartbeats 1000000 in
/-- At the last tile of a batch block, accumulator 2 after the point is the tile's update of what the tile before left. -/
theorem accC_2 (c : Dev nD) (t : Fin cfg0.N) (h0 : ¬t.val % 16 = 0) (h1 : t.val % 16 = 15) :
    (outsAt0 m c t.val t.isLt).2.2.2 = k0_pay1 (k0_pay19 (k0_pay13 (iblk m c 0 t)) (k0_pay14 (iblk m c 0 t) (iblk m c 3 t) (iblk m c 2 t)) (iblk m c 1 t) (outsAt0 m c (t.val - 1) (Nat.lt_of_le_of_lt (Nat.sub_le _ _) t.isLt)).2.2.2) :=
  (congrArg (fun p => p.2.2.2) (outsAt0_C m c t h0 h1)).trans (sout_C_2 (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun hh => h0 ((hcond0_0 t).mp hh)) (hc1 := (hcond0_1 t).mpr h1))

set_option maxHeartbeats 1000000 in
/-- The stored block is the statistics' payload of the three accumulators as the point leaves them. -/
theorem outC_eq (c : Dev nD) (t : Fin cfg0.N) (h0 : ¬t.val % 16 = 0) (h1 : t.val % 16 = 15) :
    outC m c t h0 h1
      = k0_pay2 (F := Ideal) (k0_pay5 (outsAt0 m c t.val t.isLt).2.1 (iblk m c 1 t))
          (k0_pay7 (outsAt0 m c t.val t.isLt).2.1 (outsAt0 m c t.val t.isLt).2.2.1 (iblk m c 2 t))
          (k0_pay8 (outsAt0 m c t.val t.isLt).2.1 (outsAt0 m c t.val t.isLt).2.2.1 (outsAt0 m c t.val t.isLt).2.2.2 (iblk m c 2 t) (iblk m c 3 t)) := by
  unfold outC
  rw [out_C_4 (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun hh => h0 ((hcond0_0 t).mp hh)) (hc1 := (hcond0_1 t).mpr h1)]
  rw [← accC_0 m c t h0 h1, ← accC_1 m c t h0 h1, ← accC_2 m c t h0 h1]

set_option maxHeartbeats 1000000 in
/-- THE STORED BLOCK, entry by entry: at the last tile of a batch block, entry (b, j) of the output block is entry
    (8·(t/16) + b, j) of the Fisher vector of the argument arrays — the statistics of the accumulators, which by the
    invariant hold the sums over all the batch row's rows. -/
theorem block_at (c : Dev nD) (t : Fin cfg0.N) (h0 : ¬t.val % 16 = 0) (h1 : t.val % 16 = 15) (b : Fin 8) (j : Fin 8256) :
    outC m c t h0 h1 (ix2 b j) = fisher (xA m c) (piA m c) (muA m c) (varA m c) (ix2 (rowAt t b) j) := by
  rw [outC_eq m c t h0 h1]
  have hS0 : (fun k => (outsAt0 m c t.val t.isLt).2.1 (ix2 b k)) = S0 (xA m c) (piA m c) (muA m c) (varA m c) (rowAt t b) :=
    funext fun k => (acc_last m c t h1 b k k).1
  have hS1 : (fun k d => (outsAt0 m c t.val t.isLt).2.2.1 (ix3 b k d)) = S1 (xA m c) (piA m c) (muA m c) (varA m c) (rowAt t b) :=
    funext fun k => funext fun d => (acc_last m c t h1 b k d).2.1
  have hS2 : (fun k d => (outsAt0 m c t.val t.isLt).2.2.2 (ix3 b k d)) = S2 (xA m c) (piA m c) (muA m c) (varA m c) (rowAt t b) :=
    funext fun k => funext fun d => (acc_last m c t h1 b k d).2.2
  have hp : (fun k => (iblk m c 1 t : Vec Ideal S64 .f32) (ix1 k)) = vecOf (piA m c) := piF_iblk m c t
  have hm : (fun k d => (iblk m c 2 t : Vec Ideal S64x64 .f32) (ix2 k d)) = matOf (muA m c) := matF_iblk2 m c t
  have hv : (fun k d => (iblk m c 3 t : Vec Ideal S64x64 .f32) (ix2 k d)) = matOf (varA m c) := matF_iblk3 m c t
  rcases col_cases j with ⟨k, rfl⟩ | ⟨k, d, rfl⟩ | ⟨k, d, rfl⟩
  · refine (Stats.out_dPi (iblk m c 1 t) (iblk m c 2 t) (iblk m c 3 t) (outsAt0 m c t.val t.isLt).2.1 (outsAt0 m c t.val t.isLt).2.2.1 (outsAt0 m c t.val t.isLt).2.2.2 b k).trans ?_
    rw [hS0, hp, fisher_dPi]
  · refine (Stats.out_dMu (iblk m c 1 t) (iblk m c 2 t) (iblk m c 3 t) (outsAt0 m c t.val t.isLt).2.1 (outsAt0 m c t.val t.isLt).2.2.1 (outsAt0 m c t.val t.isLt).2.2.2 b k d).trans ?_
    rw [hS0, hS1, hm, fisher_dMu]
  · refine (Stats.out_dSigma (iblk m c 1 t) (iblk m c 2 t) (iblk m c 3 t) (outsAt0 m c t.val t.isLt).2.1 (outsAt0 m c t.val t.isLt).2.2.1 (outsAt0 m c t.val t.isLt).2.2.2 b k d).trans ?_
    rw [hS0, hS1, hS2, hm, hv, fisher_dSigma]

set_option maxHeartbeats 1000000 in
/-- WHAT A WRITE-BACK WRITES: at the last tile of a batch block the output block is the Fisher vector of the argument
    arrays read through the block. -/
theorem flushed_eq (c : Dev nD) (t : Fin cfg0.N) (hf : (cfg0.win 4).flush t = true) :
    (dats m 0 c).flushed 4 t
      = ((cfg0.win 4).blk t).view.read (Elt Ideal) (fisher (xA m c) (piA m c) (muA m c) (varA m c)) := by
  have h1 : t.val % 16 = 15 := (flush0_4 t).mp hf
  have h0 : ¬t.val % 16 = 0 := by omega
  rw [Value.flushed4_C m c t h0 h1]
  show (cfg0.win 4).cut (grid0.coords t) (outC m c t h0 h1) = _
  funext y
  have hb : (y 0).val < 8 := (y 0).isLt
  have hj : (y 1).val < 8256 := (y 1).isLt
  rw [View.read_apply]
  have hx : (cfg0.win 4).xinj (grid0.coords t) y = ix2 (⟨(y 0).val, hb⟩ : Fin 8) (⟨(y 1).val, hj⟩ : Fin 8256) :=
    funext fun a => by
      match a with
      | ⟨0, _⟩ => exact Fin.ext rfl
      | ⟨1, _⟩ => exact Fin.ext rfl
  have he : ((cfg0.win 4).blk t).view.emb y = ix2 (rowAt t (⟨(y 0).val, hb⟩ : Fin 8)) (⟨(y 1).val, hj⟩ : Fin 8256) := by
    obtain ⟨-, -, -, -, -, -, -, -, e0, e1⟩ := idx_facts t
    funext a
    apply Fin.ext
    match a with
    | ⟨0, _⟩ => show win0_4.index t (0 : Fin 2) * 8 + 1 * (y 0).val = 8 * (t.val / 16) + (y 0).val; rw [e0]; omega
    | ⟨1, _⟩ => show win0_4.index t (1 : Fin 2) * 8256 + 1 * (y 1).val = (y 1).val; rw [e1]; omega
  rw [he]
  exact (congrArg (outC m c t h0 h1) hx).trans (block_at m c t h0 h1 (⟨(y 0).val, hb⟩ : Fin 8) (⟨(y 1).val, hj⟩ : Fin 8256))

/-- THE RESULT ARRAY after the run is the Fisher vector of the argument arrays: the two write-backs cover it. -/
theorem final (c : Dev nD) :
    (dats m 0 c).arrAt 4 cfg0.N = fisher (xA m c) (piA m c) (muA m c) (varA m c) :=
  (dats m 0 c).arrAt_eq_of_cover 4 (fisher (xA m c) (piA m c) (muA m c) (varA m c)) (flushed_eq m c) cover4

/-- The kernel's run, read: the result array at the Fisher vector of the arguments, the arguments unchanged. -/
theorem run : θ_run defs (onTc (τ := τ) (main (F := Ideal))) ⟨m, fun _ => 0, ρ⟩ fun r => ∀ c : Dev nD,
      r.2.mem ((c : Thread nD τ).loc main_v0) = fisher (xA m c) (piA m c) (muA m c) (varA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Fold

end
-- ==== Proof.RefRun.lean ====
/-
  The reference's run, read: its result buffer ends holding its last stage of the argument arrays.

  The reference is a straight line of 92 host operations; after the line has run, a buffer holds the fold of the
  operations' results over the launch contents (`after`). For a buffer written by a one-, two- or no-operand
  operation the fold evaluates to the composed term of the operations by one simplification pass, and that term
  IS the stage `val_…` of the argument arrays (each stage is by definition its operation applied to the stages
  before). The line's LAST operation joins three buffers along an axis; a line that ends in such an operation holds,
  in its result, the operation's function of what the line leaves in the operands — which the last operation does
  not write (`after_snoc_nary`). So the result is the concatenation of the three operand stages: the last stage.
-/
import proofs.«151066_j6837587935988_2_alg».proof.Proof.RefRunPatched
import proofs.«151066_j6837587935988_2_alg».proof.Proof.RefReadPatched
import Idealize.ShloMosaic.Lib.StableHlo.Run

noncomputable section

open Idealize.ShloMosaic Idealize.ShloMosaic.TcCoe Idealize.SL.Sem Idealize.ShloMosaic.StableHlo

/-! ## A line that ends in an operation of several operands -/

namespace Cert.ReferenceIdeal.RefRun

section Generic

variable {τ : Topo} {sig : RefSig} {Val : EltTy → Type}

/-- Two lines run one after the other leave what the second leaves from what the first left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line that ends in an operation joining the buffers `xs k` into `y` (none of them `y` itself) leaves in `y` the
    operation's function of what the WHOLE line leaves in the operands: the last operation does not write them. -/
theorem after_snoc_nary {n : Nat} (l : List (HloOp τ sig Val)) (xs : Fin n → Ref sig .tc) (y : Ref sig .tc)
    (f : ((k : Fin n) → (xs k).ty.Contents Val) → y.ty.Contents Val) (hxs hy) (V : Valuation τ sig Val)
    (hne : ∀ k, xs k ≠ y) :
    after (l ++ [nary (τ := τ) xs y f hxs hy]) V (Proc.devRef .tc y)
      = f (fun k => after (l ++ [nary (τ := τ) xs y f hxs hy]) V (Proc.devRef .tc (xs k))) := by
  rw [after_append]
  show (nary (τ := τ) xs y f hxs hy).result (after l V) (Proc.devRef .tc y) = _
  rw [nary_result]
  refine congrArg f (funext fun k => ?_)
  show _ = (nary (τ := τ) xs y f hxs hy).result (after l V) (Proc.devRef .tc (xs k))
  exact (nary_result_ne y xs f hxs hy (after l V) (hne k)).symm

end Generic

/-! ## The reference's buffers after its line -/

open Cert.ReferenceIdeal Cert.ReferenceIdeal.Gen Cert.ReferenceIdeal.ValueP Cert.ReferenceIdeal.ReadP

variable {F : FTy → Type} [FloatOps F]
variable (m : (ℓ : Loc nD τ sig) → Buf (Elt F) ℓ) (c : Dev nD)

/-- The four argument arrays' launch contents. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)

set_option maxRecDepth 16384 in
set_option maxHeartbeats 36800000 in
/-- The first joined buffer (the `d_pi` rows) after the line: its stage of the arguments. -/
theorem after_v50 : after (ops (F := F)) (launchContents m c) (Proc.devRef .tc main_v50)
    = val_main_v50 (F := F) (a0 m c) (a1 m c) (a2 m c) (a3 m c) := by
  after_results_simp <;> rfl

set_option maxRecDepth 16384 in
set_option maxHeartbeats 36800000 in
/-- The second joined buffer (the `d_mu` rows, flattened) after the line. -/
theorem after_v75 : after (ops (F := F)) (launchContents m c) (Proc.devRef .tc main_v75)
    = val_main_v75 (F := F) (a0 m c) (a1 m c) (a2 m c) (a3 m c) := by
  after_results_simp <;> rfl

set_option maxRecDepth 16384 in
set_option maxHeartbeats 36800000 in
/-- The third joined buffer (the `d_sigma` rows, flattened) after the line. -/
theorem after_v76 : after (ops (F := F)) (launchContents m c) (Proc.devRef .tc main_v76)
    = val_main_v76 (F := F) (a0 m c) (a1 m c) (a2 m c) (a3 m c) := by
  after_results_simp <;> rfl

/-- The line is its first 91 operations followed by the concatenation. -/
theorem ops_split : (ops (F := F))
    = (ops (F := F)).dropLast ++ [nary ![main_v50, main_v75, main_v76] main_v77
        (fun u => concatenate S16x8256 1 [⟨S16x64, u 0⟩, ⟨S16x4096, u 1⟩, ⟨S16x4096, u 2⟩] concatenates_S16x64_S16x4096_S16x4096_S16x8256_d1)] := rfl

set_option maxHeartbeats 4000000 in
/-- THE RESULT BUFFER after the line is the reference's last stage of the argument arrays. -/
theorem after_v77 : after (ops (F := F)) (launchContents m c) (Proc.devRef .tc main_v77)
    = val_main_v77 (F := F) (a0 m c) (a1 m c) (a2 m c) (a3 m c) := by
  have h := after_snoc_nary (ops (F := F)).dropLast ![main_v50, main_v75, main_v76] main_v77
    (fun u => concatenate S16x8256 1 [⟨S16x64, u 0⟩, ⟨S16x4096, u 1⟩, ⟨S16x4096, u 2⟩] concatenates_S16x64_S16x4096_S16x4096_S16x8256_d1)
    (by decide) (by exact ⟨by decide, rfl⟩) (launchContents m c) (by decide)
  rw [← ops_split] at h
  refine h.trans ?_
  show concatenate S16x8256 1 [⟨S16x64, after (ops (F := F)) (launchContents m c) (Proc.devRef .tc main_v50)⟩,
      ⟨S16x4096, after (ops (F := F)) (launchContents m c) (Proc.devRef .tc main_v75)⟩,
      ⟨S16x4096, after (ops (F := F)) (launchContents m c) (Proc.devRef .tc main_v76)⟩] concatenates_S16x64_S16x4096_S16x4096_S16x8256_d1 = _
  rw [after_v50, after_v75, after_v76]
  rfl

/-- The reference's run, read: every weakly fair execution terminates with the result buffer at the last stage of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = val_main_v77 (F := F) (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (after_v77 m c), (h c).2⟩) (run_after (F := F) m ρ)

end Cert.ReferenceIdeal.RefRun

end
-- ==== Proof.RefStats.lean ====
/-
  The reference program's stages read at an index, against the specification of the Fisher vector.

  The reference computes, for every batch element `b`, row `n` and mixture component `k`, the score
  `logit k` of the row (the Mahalanobis distance expanded into three sums over the features), the row's
  responsibilities as the softmax of the scores over `k`, then the three responsibility-weighted sums over
  the rows, and from them the three blocks of statistics, laid side by side along the second axis.
  Each lemma below reads one stage at explicit coordinates and identifies it with the corresponding
  function of the specification; the sums that the host starts from the literal `0` lose that term by `0 + a = a`.
-/
import proofs.«151066_j6837587935988_2_alg».proof.Proof.RefReadPatched
import proofs.«151066_j6837587935988_2_alg».proof.Proof.FisherSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.ReadP Cert.FisherSpec Idealize.ShloMosaic Idealize.ShloMosaic.ValueIdx

/-! ## The arguments, curried by coordinates -/

/-- The mixture weights by component. -/
abbrev piR (pi : (⟨S64, .f32⟩ : BufTy).Contents (Elt Ideal)) : Fin 64 → EReal := fun k => pi (ix1 k)
/-- A `[64, 64]` parameter by component and feature. -/
abbrev matR (a : (⟨S64x64, .f32⟩ : BufTy).Contents (Elt Ideal)) : Fin 64 → Fin 64 → EReal := fun k d => a (ix2 k d)
/-- Batch element `b`'s rows by row and feature. -/
abbrev rowsR (x : (⟨S16x16384x64, .f32⟩ : BufTy).Contents (Elt Ideal)) (b : Fin 16) : Fin 16384 → Fin 64 → EReal :=
  fun n d => x (ix3 b n d)

variable (x : (⟨S16x16384x64, .f32⟩ : BufTy).Contents (Elt Ideal)) (pi : (⟨S64, .f32⟩ : BufTy).Contents (Elt Ideal))
  (mu var : (⟨S64x64, .f32⟩ : BufTy).Contents (Elt Ideal))

/-! ## The inverse variances and the three sums of the expanded distance -/

/-- `1 / σ²` at component `k`, feature `d`. -/
theorem v1_at (k d : Fin 64) : val_main_v1 (F := Ideal) var (ix2 k d) = invVar (matR var) k d := by
  rw [val_main_v1_apply, val_main_v0_apply, val_main_cst_apply]
  rfl

theorem lidx3_at (b : Fin 16) (n : Fin 16384) (k d : Fin 64) : lidx_main_v3 (ix3 b n k) d = ix3 b n d :=
  funext fun a => Fin.ext (by match a with | ⟨0, _⟩ => rfl | ⟨1, _⟩ => rfl | ⟨2, _⟩ => rfl)
theorem ridx3_at (b : Fin 16) (n : Fin 16384) (k d : Fin 64) : ridx_main_v3 (ix3 b n k) d = ix2 k d :=
  funext fun a => Fin.ext (by match a with | ⟨0, _⟩ => rfl | ⟨1, _⟩ => rfl)
theorem lidx5_at (b : Fin 16) (n : Fin 16384) (k d : Fin 64) : lidx_main_v5 (ix3 b n k) d = ix3 b n d :=
  funext fun a => Fin.ext (by match a with | ⟨0, _⟩ => rfl | ⟨1, _⟩ => rfl | ⟨2, _⟩ => rfl)
theorem ridx5_at (b : Fin 16) (n : Fin 16384) (k d : Fin 64) : ridx_main_v5 (ix3 b n k) d = ix2 k d :=
  funext fun a => Fin.ext (by match a with | ⟨0, _⟩ => rfl | ⟨1, _⟩ => rfl)

/-- `Σ_d x_d² / σ²_{k,d}`. -/
theorem v3_at (b : Fin 16) (n : Fin 16384) (k : Fin 64) :
    val_main_v3 (F := Ideal) x var (ix3 b n k)
      = ∑ d : Fin 64, (rowsR x b n d * rowsR x b n d) * invVar (matR var) k d := by
  rw [val_main_v3_apply]
  refine Finset.sum_congr rfl fun d _ => ?_
  rw [lidx3_at, ridx3_at, v1_at, val_main_v2_apply]
  rfl

/-- `Σ_d x_d · (μ_{k,d} / σ²_{k,d})`. -/
theorem v5_at (b : Fin 16) (n : Fin 16384) (k : Fin 64) :
    val_main_v5 (F := Ideal) x mu var (ix3 b n k)
      = ∑ d : Fin 64, rowsR x b n d * (matR mu k d * invVar (matR var) k d) := by
  rw [val_main_v5_apply]
  refine Finset.sum_congr rfl fun d _ => ?_
  rw [lidx5_at, ridx5_at, val_main_v4_apply, v1_at]
  rfl

theorem idx11_at (k d : Fin 64) : idx_main_v11 (ix1 k) d = ix2 k d :=
  funext fun a => Fin.ext (by match a with | ⟨0, _⟩ => rfl | ⟨1, _⟩ => rfl)
theorem idx16_at (k d : Fin 64) : idx_main_v16 (ix1 k) d = ix2 k d :=
  funext fun a => Fin.ext (by match a with | ⟨0, _⟩ => rfl | ⟨1, _⟩ => rfl)

/-- `Σ_d μ_{k,d}² / σ²_{k,d}`. -/
theorem v11_at (k : Fin 64) :
    val_main_v11 (F := Ideal) mu var (ix1 k) = ∑ d : Fin 64, (matR mu k d * matR mu k d) * invVar (matR var) k d := by
  rw [val_main_v11_apply, val_main_cst_1_apply, Ideal.ofBits_def, Ideal.ofBits_zero_f32, zero_add]
  refine Finset.sum_congr rfl fun d _ => ?_
  rw [idx11_at, val_main_v10_apply, val_main_v9_apply, v1_at]
  rfl

/-- `Σ_d log σ²_{k,d}`. -/
theorem v16_at (k : Fin 64) :
    val_main_v16 (F := Ideal) var (ix1 k) = ∑ d : Fin 64, Ideal.log (matR var k d) := by
  rw [val_main_v16_apply, val_main_cst_2_apply, Ideal.ofBits_def, Ideal.ofBits_zero_f32, zero_add]
  refine Finset.sum_congr rfl fun d _ => ?_
  rw [idx16_at, val_main_v15_apply]
  rfl

/-- `D·log 2π + Σ_d log σ²_{k,d}`. -/
theorem v18_at (k : Fin 64) :
    val_main_v18 (F := Ideal) var (ix1 k) = cDLog2Pi + ∑ d : Fin 64, Ideal.log (matR var k d) := by
  rw [val_main_v18_apply, v16_at, val_main_v17_apply, val_main_cst_3_apply]
  rfl

/-! ## The score of a row -/

theorem idx12_13_at (b : Fin 16) (n : Fin 16384) (k : Fin 64) : idx_main_v12 (idx_main_v13 (ix3 b n k)) = ix1 k :=
  funext fun a => Fin.ext (by match a with | ⟨0, _⟩ => rfl)
theorem idx19_20_at (b : Fin 16) (n : Fin 16384) (k : Fin 64) : idx_main_v19 (idx_main_v20 (ix3 b n k)) = ix1 k :=
  funext fun a => Fin.ext (by match a with | ⟨0, _⟩ => rfl)
theorem idx25_26_at (b : Fin 16) (n : Fin 16384) (k : Fin 64) : idx_main_v25 (idx_main_v26 (ix3 b n k)) = ix1 k :=
  funext fun a => Fin.ext (by match a with | ⟨0, _⟩ => rfl)

/-- The quadratic part, `(Σ x²/σ² − 2 · Σ x μ/σ²) + Σ μ²/σ²`. -/
theorem v14_at (b : Fin 16) (n : Fin 16384) (k : Fin 64) :
    val_main_v14 (F := Ideal) x mu var (ix3 b n k)
      = ((∑ d : Fin 64, (rowsR x b n d * rowsR x b n d) * invVar (matR var) k d)
          - cTwo * ∑ d : Fin 64, rowsR x b n d * (matR mu k d * invVar (matR var) k d))
        + ∑ d : Fin 64, (matR mu k d * matR mu k d) * invVar (matR var) k d := by
  rw [val_main_v14_apply, val_main_v8_apply, v3_at, val_main_v7_apply, v5_at, val_main_v6_apply, val_main_cst_0_apply,
    val_main_v13_apply, val_main_v12_apply, idx12_13_at, v11_at]
  rfl

/-- The score of component `k` at row `n` of batch element `b`. -/
theorem v27_at (b : Fin 16) (n : Fin 16384) (k : Fin 64) :
    val_main_v27 (F := Ideal) x pi mu var (ix3 b n k) = logit (piR pi) (matR mu) (matR var) (rowsR x b n) k := by
  rw [val_main_v27_apply, val_main_v23_apply, val_main_v22_apply, val_main_cst_4_apply, val_main_v21_apply, v14_at,
    val_main_v20_apply, val_main_v19_apply, idx19_20_at, v18_at,
    val_main_v26_apply, val_main_v25_apply, idx25_26_at, val_main_v24_apply]
  rfl

/-! ## The row maximum -/

/-- The reduced index `(b, n)` with the component `k` put back is `(b, n, k)`. -/
theorem lift28_at (h : S16x16384x64.Reduces [2] S16x16384) (b : Fin 16) (n : Fin 16384) (k : Fin (S16x16384x64.size 2)) :
    h.lift (ix2 b n) k = ix3 b n (⟨k.val, k.isLt⟩ : Fin 64) :=
  funext fun c => Fin.ext (by match c with | ⟨0, _⟩ => rfl | ⟨1, _⟩ => rfl | ⟨2, _⟩ => rfl)

/-- The maximum over the components, from `-∞`. -/
theorem v28_at (b : Fin 16) (n : Fin 16384) :
    val_main_v28 (F := Ideal) x pi mu var (ix2 b n)
      = (Finset.univ : Finset (Fin 64)).fold max cNegInf (logit (piR pi) (matR mu) (matR var) (rowsR x b n)) := by
  have h : S16x16384x64.Reduces [2] S16x16384 := by decide
  unfold val_main_v28
  have e := Host.reduce_eq_fold_single (α := Ideal .f32) (s := S16x16384x64) (t := S16x16384) (a := 2) (u := S_)
    (FloatOps.maximumf (F := Ideal) (φ := .f32)) (val_main_v27 (F := Ideal) x pi mu var) (val_main_cst_5 (F := Ideal))
    reducesTo_S16x16384x64_S16x16384_d2 h h_S_ (ix2 b n)
  refine e.trans ?_
  have hf : (val_main_v27 (F := Ideal) x pi mu var ∘ h.lift (ix2 b n))
      = logit (piR pi) (matR mu) (matR var) (rowsR x b n) :=
    funext fun k => (congrArg (val_main_v27 (F := Ideal) x pi mu var) (lift28_at h b n k)).trans (v27_at x pi mu var b n _)
  exact congrArg (fun f => Finset.fold max cNegInf f (Finset.univ : Finset (Fin 64))) hf

/-- The row maximum as the softmax takes it. -/
theorem v30_at (b : Fin 16) (n : Fin 16384) :
    val_main_v30 (F := Ideal) x pi mu var (ix2 b n) = rowMax (piR pi) (matR mu) (matR var) (rowsR x b n) := by
  rw [val_main_v30_apply, v28_at, val_main_v29_apply, val_main_cst_6_apply]
  rfl

theorem idx31_32_at (b : Fin 16) (n : Fin 16384) (k : Fin 64) : idx_main_v31 (idx_main_v32 (ix3 b n k)) = ix2 b n :=
  funext fun a => Fin.ext (by match a with | ⟨0, _⟩ => rfl | ⟨1, _⟩ => rfl)
theorem idx36_37_at (b : Fin 16) (n : Fin 16384) (k : Fin 64) : idx_main_v36 (idx_main_v37 (ix3 b n k)) = ix2 b n :=
  funext fun a => Fin.ext (by match a with | ⟨0, _⟩ => rfl | ⟨1, _⟩ => rfl)
theorem idx35_at (b : Fin 16) (n : Fin 16384) (k : Fin 64) : idx_main_v35 (ix2 b n) k = ix3 b n k :=
  funext fun a => Fin.ext (by match a with | ⟨0, _⟩ => rfl | ⟨1, _⟩ => rfl | ⟨2, _⟩ => rfl)

/-! ## The softmax -/

/-- `exp (logit k − rowMax)`. -/
theorem v34_at (b : Fin 16) (n : Fin 16384) (k : Fin 64) :
    val_main_v34 (F := Ideal) x pi mu var (ix3 b n k) = expo (piR pi) (matR mu) (matR var) (rowsR x b n) k := by
  rw [val_main_v34_apply, val_main_v33_apply, v27_at, val_main_v32_apply, val_main_v31_apply, idx31_32_at, v30_at]
  rfl

/-- The softmax's denominator. -/
theorem v35_at (b : Fin 16) (n : Fin 16384) :
    val_main_v35 (F := Ideal) x pi mu var (ix2 b n) = ∑ k' : Fin 64, expo (piR pi) (matR mu) (matR var) (rowsR x b n) k' := by
  rw [val_main_v35_apply, val_main_cst_7_apply, Ideal.ofBits_def, Ideal.ofBits_zero_f32, zero_add]
  refine Finset.sum_congr rfl fun k' _ => ?_
  rw [idx35_at, v34_at]

/-- **The responsibilities.** -/
theorem resp_ref (b : Fin 16) (n : Fin 16384) (k : Fin 64) :
    val_main_v38 (F := Ideal) x pi mu var (ix3 b n k) = resp (piR pi) (matR mu) (matR var) (rowsR x b n) k := by
  rw [val_main_v38_apply, v34_at, val_main_v37_apply, val_main_v36_apply, idx36_37_at, v35_at]
  rfl

/-! ## The three weighted sums over the rows, divided by the number of rows -/

theorem idx39_at (b : Fin 16) (k : Fin 64) (n : Fin 16384) : idx_main_v39 (ix2 b k) n = ix3 b n k :=
  funext fun a => Fin.ext (by match a with | ⟨0, _⟩ => rfl | ⟨1, _⟩ => rfl | ⟨2, _⟩ => rfl)
theorem lidx42_at (b : Fin 16) (k d : Fin 64) (n : Fin 16384) : lidx_main_v42 (ix3 b k d) n = ix3 b n k :=
  funext fun a => Fin.ext (by match a with | ⟨0, _⟩ => rfl | ⟨1, _⟩ => rfl | ⟨2, _⟩ => rfl)
theorem ridx42_at (b : Fin 16) (k d : Fin 64) (n : Fin 16384) : ridx_main_v42 (ix3 b k d) n = ix3 b n d :=
  funext fun a => Fin.ext (by match a with | ⟨0, _⟩ => rfl | ⟨1, _⟩ => rfl | ⟨2, _⟩ => rfl)
theorem lidx45_at (b : Fin 16) (k d : Fin 64) (n : Fin 16384) : lidx_main_v45 (ix3 b k d) n = ix3 b n k :=
  funext fun a => Fin.ext (by match a with | ⟨0, _⟩ => rfl | ⟨1, _⟩ => rfl | ⟨2, _⟩ => rfl)
theorem ridx45_at (b : Fin 16) (k d : Fin 64) (n : Fin 16384) : ridx_main_v45 (ix3 b k d) n = ix3 b n d :=
  funext fun a => Fin.ext (by match a with | ⟨0, _⟩ => rfl | ⟨1, _⟩ => rfl | ⟨2, _⟩ => rfl)

/-- `Σ_n resp_n k`. -/
theorem v39_at (b : Fin 16) (k : Fin 64) :
    val_main_v39 (F := Ideal) x pi mu var (ix2 b k) = sumQ (piR pi) (matR mu) (matR var) (rowsR x b) k := by
  rw [val_main_v39_apply, val_main_cst_8_apply, Ideal.ofBits_def, Ideal.ofBits_zero_f32, zero_add]
  unfold sumQ
  refine Finset.sum_congr rfl fun n _ => ?_
  rw [idx39_at, resp_ref]

/-- `(Σ_n resp_n k) / N`. -/
theorem v41_at (b : Fin 16) (k : Fin 64) :
    val_main_v41 (F := Ideal) x pi mu var (ix2 b k)
      = Ideal.div (sumQ (piR pi) (matR mu) (matR var) (rowsR x b) k) cN := by
  rw [val_main_v41_apply, v39_at, val_main_v40_apply, val_main_cst_9_apply]
  rfl

/-- `Σ_n resp_n k · x_{n,d}`. -/
theorem v42_at (b : Fin 16) (k d : Fin 64) :
    val_main_v42 (F := Ideal) x pi mu var (ix3 b k d) = sumQx (piR pi) (matR mu) (matR var) (rowsR x b) k d := by
  rw [val_main_v42_apply]
  unfold sumQx
  refine Finset.sum_congr rfl fun n _ => ?_
  rw [lidx42_at, ridx42_at, resp_ref]

/-- `(Σ_n resp_n k · x_{n,d}) / N`. -/
theorem v44_at (b : Fin 16) (k d : Fin 64) :
    val_main_v44 (F := Ideal) x pi mu var (ix3 b k d)
      = Ideal.div (sumQx (piR pi) (matR mu) (matR var) (rowsR x b) k d) cN := by
  rw [val_main_v44_apply, v42_at, val_main_v43_apply, val_main_cst_10_apply]
  rfl

/-- `Σ_n resp_n k · x_{n,d}²`. -/
theorem v45_at (b : Fin 16) (k d : Fin 64) :
    val_main_v45 (F := Ideal) x pi mu var (ix3 b k d) = sumQx2 (piR pi) (matR mu) (matR var) (rowsR x b) k d := by
  rw [val_main_v45_apply]
  unfold sumQx2
  refine Finset.sum_congr rfl fun n _ => ?_
  rw [lidx45_at, ridx45_at, resp_ref, val_main_v2_apply]
  rfl

/-- `(Σ_n resp_n k · x_{n,d}²) / N`. -/
theorem v47_at (b : Fin 16) (k d : Fin 64) :
    val_main_v47 (F := Ideal) x pi mu var (ix3 b k d)
      = Ideal.div (sumQx2 (piR pi) (matR mu) (matR var) (rowsR x b) k d) cN := by
  rw [val_main_v47_apply, v45_at, val_main_v46_apply, val_main_cst_11_apply]
  rfl

/-! ## The statistics -/

theorem idx48_49_at (b : Fin 16) (k : Fin 64) : idx_main_v48 (idx_main_v49 (ix2 b k)) = ix1 k :=
  funext fun a => Fin.ext (by match a with | ⟨0, _⟩ => rfl)
theorem idx51_53_at (b : Fin 16) (k d : Fin 64) : idx_main_v51 (idx_main_v53 (ix3 b k d)) = ix2 b k :=
  funext fun a => Fin.ext (by match a with | ⟨0, _⟩ => rfl | ⟨1, _⟩ => rfl)
theorem idx51_60_at (b : Fin 16) (k d : Fin 64) : idx_main_v51 (idx_main_v60 (ix3 b k d)) = ix2 b k :=
  funext fun a => Fin.ext (by match a with | ⟨0, _⟩ => rfl | ⟨1, _⟩ => rfl)
theorem idx51_65_at (b : Fin 16) (k d : Fin 64) : idx_main_v51 (idx_main_v65 (ix3 b k d)) = ix2 b k :=
  funext fun a => Fin.ext (by match a with | ⟨0, _⟩ => rfl | ⟨1, _⟩ => rfl)
theorem idx52_54_at (b : Fin 16) (k d : Fin 64) : idx_main_v52 (idx_main_v54 (ix3 b k d)) = ix2 k d :=
  funext fun a => Fin.ext (by match a with | ⟨0, _⟩ => rfl | ⟨1, _⟩ => rfl)
theorem idx59_61_at (b : Fin 16) (k d : Fin 64) : idx_main_v59 (idx_main_v61 (ix3 b k d)) = ix2 k d :=
  funext fun a => Fin.ext (by match a with | ⟨0, _⟩ => rfl | ⟨1, _⟩ => rfl)
theorem idx64_66_at (b : Fin 16) (k d : Fin 64) : idx_main_v64 (idx_main_v66 (ix3 b k d)) = ix2 k d :=
  funext fun a => Fin.ext (by match a with | ⟨0, _⟩ => rfl | ⟨1, _⟩ => rfl)
theorem idx71_72_at (b : Fin 16) (k d : Fin 64) : idx_main_v71 (idx_main_v72 (ix3 b k d)) = ix2 k d :=
  funext fun a => Fin.ext (by match a with | ⟨0, _⟩ => rfl | ⟨1, _⟩ => rfl)

/-- The first block: `S0 k / N − π_k`. -/
theorem v50_at (b : Fin 16) (k : Fin 64) :
    val_main_v50 (F := Ideal) x pi mu var (ix2 b k)
      = dPi (piR pi) (sumQ (piR pi) (matR mu) (matR var) (rowsR x b)) k := by
  rw [val_main_v50_apply, v41_at, val_main_v49_apply, val_main_v48_apply, idx48_49_at]
  rfl

/-- `(S0 k / N) · μ_{k,d}`. -/
theorem v55_at (b : Fin 16) (k d : Fin 64) :
    val_main_v55 (F := Ideal) x pi mu var (ix3 b k d)
      = Ideal.div (sumQ (piR pi) (matR mu) (matR var) (rowsR x b) k) cN * matR mu k d := by
  rw [val_main_v55_apply, val_main_v53_apply, val_main_v51_apply, idx51_53_at, v41_at, val_main_v54_apply, val_main_v52_apply,
    idx52_54_at]
  rfl

/-- The second block: `S1 k d / N − (S0 k / N) · μ_{k,d}`. -/
theorem v56_at (b : Fin 16) (k d : Fin 64) :
    val_main_v56 (F := Ideal) x pi mu var (ix3 b k d)
      = dMu (matR mu) (sumQ (piR pi) (matR mu) (matR var) (rowsR x b)) (sumQx (piR pi) (matR mu) (matR var) (rowsR x b)) k d := by
  rw [val_main_v56_apply, v44_at, v55_at]
  rfl

/-- `(S0 k / N) · μ_{k,d}²`. -/
theorem v62_at (b : Fin 16) (k d : Fin 64) :
    val_main_v62 (F := Ideal) x pi mu var (ix3 b k d)
      = Ideal.div (sumQ (piR pi) (matR mu) (matR var) (rowsR x b) k) cN * (matR mu k d * matR mu k d) := by
  rw [val_main_v62_apply, val_main_v60_apply, val_main_v51_apply, idx51_60_at, v41_at, val_main_v61_apply, val_main_v59_apply,
    idx59_61_at, val_main_v58_apply]
  rfl

/-- `(S0 k / N) · σ²_{k,d}`. -/
theorem v67_at (b : Fin 16) (k d : Fin 64) :
    val_main_v67 (F := Ideal) x pi mu var (ix3 b k d)
      = Ideal.div (sumQ (piR pi) (matR mu) (matR var) (rowsR x b) k) cN * matR var k d := by
  rw [val_main_v67_apply, val_main_v65_apply, val_main_v51_apply, idx51_65_at, v41_at, val_main_v66_apply, val_main_v64_apply,
    idx64_66_at]
  rfl

/-- `(2 · S1 k d / N) · μ_{k,d}`. -/
theorem v73_at (b : Fin 16) (k d : Fin 64) :
    val_main_v73 (F := Ideal) x pi mu var (ix3 b k d)
      = (cTwo * Ideal.div (sumQx (piR pi) (matR mu) (matR var) (rowsR x b) k d) cN) * matR mu k d := by
  rw [val_main_v73_apply, val_main_v70_apply, val_main_v69_apply, val_main_cst_12_apply, v44_at, val_main_v72_apply,
    val_main_v71_apply, idx71_72_at]
  rfl

/-- The third block: `((−S2 k d / N − (S0 k / N) · μ²) + (S0 k / N) · σ²) + (2 · S1 k d / N) · μ`. -/
theorem v74_at (b : Fin 16) (k d : Fin 64) :
    val_main_v74 (F := Ideal) x pi mu var (ix3 b k d)
      = dSigma (matR mu) (matR var) (sumQ (piR pi) (matR mu) (matR var) (rowsR x b))
          (sumQx (piR pi) (matR mu) (matR var) (rowsR x b)) (sumQx2 (piR pi) (matR mu) (matR var) (rowsR x b)) k d := by
  rw [val_main_v74_apply, val_main_v68_apply, val_main_v63_apply, val_main_v57_apply, v47_at, v62_at, v67_at, v73_at]
  rfl

/-! ## The reshapes and the concatenation -/

/-- Row-major position `64·k + d` of a `[64, 64]` block of batch element `b` is `(b, k, d)`. -/
theorem idx75_at (b : Fin 16) (k d : Fin 64) (h : 64 * k.val + d.val < 4096) :
    idx_main_v75 (ix2 b (⟨64 * k.val + d.val, h⟩ : Fin 4096)) = ix3 b k d := by
  have hb := b.isLt; have hk := k.isLt; have hd := d.isLt
  refine funext fun a => Fin.ext ?_
  match a with
  | ⟨0, _⟩ => show (b.val * 4096 + (64 * k.val + d.val)) / 4096 = b.val; omega
  | ⟨1, _⟩ => show (b.val * 4096 + (64 * k.val + d.val)) / 64 % 64 = k.val; omega
  | ⟨2, _⟩ => show (b.val * 4096 + (64 * k.val + d.val)) % 64 = d.val; omega

theorem idx76_at (b : Fin 16) (k d : Fin 64) (h : 64 * k.val + d.val < 4096) :
    idx_main_v76 (ix2 b (⟨64 * k.val + d.val, h⟩ : Fin 4096)) = ix3 b k d := by
  have hb := b.isLt; have hk := k.isLt; have hd := d.isLt
  refine funext fun a => Fin.ext ?_
  match a with
  | ⟨0, _⟩ => show (b.val * 4096 + (64 * k.val + d.val)) / 4096 = b.val; omega
  | ⟨1, _⟩ => show (b.val * 4096 + (64 * k.val + d.val)) / 64 % 64 = k.val; omega
  | ⟨2, _⟩ => show (b.val * 4096 + (64 * k.val + d.val)) % 64 = d.val; omega

/-- Columns `0 … 63` of the result are the first block. -/
theorem v77_piece0 (b : Fin 16) (k : Fin 64) (h : k.val < 8256) :
    val_main_v77 (F := Ideal) x pi mu var (ix2 b (⟨k.val, h⟩ : Fin 8256)) = val_main_v50 (F := Ideal) x pi mu var (ix2 b k) := by
  unfold val_main_v77
  exact concatenate_apply_piece (1 : Fin S16x8256.rank)
    [⟨S16x64, val_main_v50 (F := Ideal) x pi mu var⟩, ⟨S16x4096, val_main_v75 (F := Ideal) x pi mu var⟩, ⟨S16x4096, val_main_v76 (F := Ideal) x pi mu var⟩]
    concatenates_S16x64_S16x4096_S16x4096_S16x8256_d1
    (ix2 b (⟨k.val, h⟩ : Fin 8256)) 0 (by show (0 : Nat) < 3; omega) S16x64 (val_main_v50 (F := Ideal) x pi mu var) rfl rfl 0 rfl (ix2 b k)
    (fun c hc => by match c with | ⟨0, _⟩ => rfl | ⟨1, _⟩ => exact absurd rfl hc) (Nat.zero_add _)

/-- Columns `64 … 4159` are the second block, row-major. -/
theorem v77_piece1 (b : Fin 16) (c : Fin 4096) (h : 64 + c.val < 8256) :
    val_main_v77 (F := Ideal) x pi mu var (ix2 b (⟨64 + c.val, h⟩ : Fin 8256)) = val_main_v75 (F := Ideal) x pi mu var (ix2 b c) := by
  unfold val_main_v77
  exact concatenate_apply_piece (1 : Fin S16x8256.rank)
    [⟨S16x64, val_main_v50 (F := Ideal) x pi mu var⟩, ⟨S16x4096, val_main_v75 (F := Ideal) x pi mu var⟩, ⟨S16x4096, val_main_v76 (F := Ideal) x pi mu var⟩]
    concatenates_S16x64_S16x4096_S16x4096_S16x8256_d1
    (ix2 b (⟨64 + c.val, h⟩ : Fin 8256)) 1 (by show (1 : Nat) < 3; omega) S16x4096 (val_main_v75 (F := Ideal) x pi mu var) rfl rfl 64 rfl (ix2 b c)
    (fun e he => by match e with | ⟨0, _⟩ => rfl | ⟨1, _⟩ => exact absurd rfl he) rfl

/-- Columns `4160 … 8255` are the third block, row-major. -/
theorem v77_piece2 (b : Fin 16) (c : Fin 4096) (h : 4160 + c.val < 8256) :
    val_main_v77 (F := Ideal) x pi mu var (ix2 b (⟨4160 + c.val, h⟩ : Fin 8256)) = val_main_v76 (F := Ideal) x pi mu var (ix2 b c) := by
  unfold val_main_v77
  exact concatenate_apply_piece (1 : Fin S16x8256.rank)
    [⟨S16x64, val_main_v50 (F := Ideal) x pi mu var⟩, ⟨S16x4096, val_main_v75 (F := Ideal) x pi mu var⟩, ⟨S16x4096, val_main_v76 (F := Ideal) x pi mu var⟩]
    concatenates_S16x64_S16x4096_S16x4096_S16x8256_d1
    (ix2 b (⟨4160 + c.val, h⟩ : Fin 8256)) 2 (by show (2 : Nat) < 3; omega) S16x4096 (val_main_v76 (F := Ideal) x pi mu var) rfl rfl 4160 rfl (ix2 b c)
    (fun e he => by match e with | ⟨0, _⟩ => rfl | ⟨1, _⟩ => exact absurd rfl he) rfl

theorem lt_dPi (k : Fin 64) : k.val < 8256 := by have := k.isLt; omega
theorem lt_blk (k d : Fin 64) : 64 * k.val + d.val < 4096 := by have := k.isLt; have := d.isLt; omega
theorem lt_dMu (k d : Fin 64) : 64 + (64 * k.val + d.val) < 8256 := by have := k.isLt; have := d.isLt; omega
theorem lt_dSigma (k d : Fin 64) : 4160 + (64 * k.val + d.val) < 8256 := by have := k.isLt; have := d.isLt; omega

/-- **The weights' block of the result.** -/
theorem ref_dPi (b : Fin 16) (k : Fin 64) :
    val_main_v77 (F := Ideal) x pi mu var (ix2 b (⟨k.val, lt_dPi k⟩ : Fin 8256))
      = dPi (piR pi) (sumQ (piR pi) (matR mu) (matR var) (rowsR x b)) k :=
  (v77_piece0 x pi mu var b k _).trans (v50_at x pi mu var b k)

/-- **The means' block of the result.** -/
theorem ref_dMu (b : Fin 16) (k d : Fin 64) :
    val_main_v77 (F := Ideal) x pi mu var (ix2 b (⟨64 + (64 * k.val + d.val), lt_dMu k d⟩ : Fin 8256))
      = dMu (matR mu) (sumQ (piR pi) (matR mu) (matR var) (rowsR x b)) (sumQx (piR pi) (matR mu) (matR var) (rowsR x b)) k d := by
  refine (v77_piece1 x pi mu var b (⟨64 * k.val + d.val, lt_blk k d⟩ : Fin 4096) _).trans ?_
  rw [val_main_v75_apply, idx75_at, v56_at]

/-- **The variances' block of the result.** -/
theorem ref_dSigma (b : Fin 16) (k d : Fin 64) :
    val_main_v77 (F := Ideal) x pi mu var (ix2 b (⟨4160 + (64 * k.val + d.val), lt_dSigma k d⟩ : Fin 8256))
      = dSigma (matR mu) (matR var) (sumQ (piR pi) (matR mu) (matR var) (rowsR x b))
          (sumQx (piR pi) (matR mu) (matR var) (rowsR x b)) (sumQx2 (piR pi) (matR mu) (matR var) (rowsR x b)) k d := by
  refine (v77_piece2 x pi mu var b (⟨64 * k.val + d.val, lt_blk k d⟩ : Fin 4096) _).trans ?_
  rw [val_main_v76_apply, idx76_at, v74_at]

end Cert.ReferenceIdeal.RefValue

end
-- ==== Proof.Claims.lean ====
/-
  The two programs compute one function, and the five claims.

  At the ideal values the kernel's result array ends holding the Fisher vector of its argument arrays (the fold over
  the grid, read in KernelFold: sixteen tile sums per batch row, re-associated into the sums over all rows), and the
  reference's result is the same Fisher vector of ITS argument arrays: its 92 host operations read one at a time give
  the three read-forms of the result row — entry `k` of `d_pi`, entry `64k + d` of `d_mu`, entry `64k + d` of
  `d_sigma` — which determine the array. From memories that agree on the arguments the two results are therefore
  equal, entry by entry, as extended reals. No precondition is used: the only law between the two programs is
  re-association of finite sums (and `0 − q = −q`), which holds at the infinities too.

  The frames are the generated ones (the reference's is its run with the result dropped); the ideal pass rewrote
  nothing in the kernel, so the idealization claim is trivial.
-/
import proofs.«151066_j6837587935988_2_alg».proof.Defs
import proofs.«151066_j6837587935988_2_alg».proof.Proof.Gen.Kernel.Frame
import proofs.«151066_j6837587935988_2_alg».proof.Proof.Gen.KernelIdeal.Frame
import proofs.«151066_j6837587935988_2_alg».proof.Proof.Gen.Pre_finite_inputs
import proofs.«151066_j6837587935988_2_alg».proof.Proof.Gen.ReferenceIdeal
import proofs.«151066_j6837587935988_2_alg».proof.Proof.KernelFold
import proofs.«151066_j6837587935988_2_alg».proof.Proof.RefRun
import proofs.«151066_j6837587935988_2_alg».proof.Proof.RefReadPatched
import proofs.«151066_j6837587935988_2_alg».proof.Proof.RefStats
import proofs.«151066_j6837587935988_2_alg».proof.Proof.FisherSpec

noncomputable section

open Idealize.ShloMosaic Idealize.ShloMosaic.TcCoe Idealize.SL.Sem

/-! ## The reference's result is the Fisher vector -/

namespace Cert.ReferenceIdeal.RefValue

open Cert.ReferenceIdeal Cert.ReferenceIdeal.Gen Cert.FisherSpec

/-- The reference's last stage, as a function of the four argument arrays, is the Fisher vector: its three read-forms
    (`ref_dPi`, `ref_dMu`, `ref_dSigma`) are the Fisher vector's. -/
theorem val_eq_fisher (x : (⟨S16x16384x64, .f32⟩ : BufTy).Contents (Elt Ideal)) (pi : (⟨S64, .f32⟩ : BufTy).Contents (Elt Ideal))
    (mu var : (⟨S64x64, .f32⟩ : BufTy).Contents (Elt Ideal)) :
    Cert.ReferenceIdeal.ReadP.val_main_v77 (F := Ideal) x pi mu var = fisher x pi mu var :=
  eq_fisher_of_forms x pi mu var _ (fun b k => ref_dPi x pi mu var b k) (fun b k d => ref_dMu x pi mu var b k d)
    (fun b k d => ref_dSigma x pi mu var b k d)

end Cert.ReferenceIdeal.RefValue

/-! ## The claims -/

namespace Cert.Proof.Claims

open Cert.FisherSpec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation of the kernel: nothing to state. -/
theorem preserves : Cert.preserves_Kernel_KernelIdeal := trivial

/-- At the ideal values the kernel's result array ends at the Fisher vector of its arguments (`Fold.run`) and the
    reference's at the Fisher vector of arguments that agree with them (`val_eq_fisher`): one array. -/
theorem algebraic : Cert.algebraic_KernelIdeal_ReferenceIdeal := by
  intro m ρ m' ρ' _ hagree
  refine ⟨fun c => fisher (Cert.KernelIdeal.Fold.xA m c) (Cert.KernelIdeal.Fold.piA m c) (Cert.KernelIdeal.Fold.muA m c) (Cert.KernelIdeal.Fold.varA m c),
    Cert.KernelIdeal.Fold.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.val_eq_fisher]
  dsimp only [Cert.ReferenceIdeal.RefRun.a0, Cert.ReferenceIdeal.RefRun.a1, Cert.ReferenceIdeal.RefRun.a2, Cert.ReferenceIdeal.RefRun.a3,
    Cert.KernelIdeal.Fold.xA, Cert.KernelIdeal.Fold.piA, Cert.KernelIdeal.Fold.muA, Cert.KernelIdeal.Fold.varA]
  rw [(hagree c).1, (hagree c).2.1, (hagree c).2.2.1, (hagree c).2.2.2]

end Cert.Proof.Claims

end
-- ==== Proof.lean ====
/-
  The certificate of the Gaussian-mixture Fisher-vector kernel against its jnp reference.

  The kernel streams the data once: for each block of 8 batch rows it walks 16 tiles of 1024 rows, computes each row's
  responsibilities (a softmax over the 64 mixture components of the components' log-densities, the Mahalanobis
  distance expanded into matrix products), and accumulates three weighted sums of them in scratch memory; at a
  block's last tile it turns the accumulators into the three Fisher statistics and stores them side by side. The
  reference computes the same responsibilities for all 16384 rows at once, sums them with one reduction and two
  matrix products, and forms the same statistics.

  Over the extended reals the two are one function of the argument arrays: operation by operation the programs
  apply the same exact operations to the same literals, and where they differ — sixteen partial sums added up in
  order against one sum over all rows; `0 − q` against `−q` — the difference is re-association of a finite sum in a
  commutative monoid, which needs no finiteness. The modules: FisherSpec (the function, and the re-association
  law), KernelPayloads and KernelStats (the kernel's arithmetic read at an index), KernelPieces and KernelBlocks
  (what the body leaves at a grid point; where the blocks sit), KernelFold (the induction over the tiles and the
  result array), RefStats (the reference read at an index), RefRun (the reference's line of operations read back: its
  result buffer ends at its last stage), Claims (the five claims).
-/
import proofs.«151066_j6837587935988_2_alg».proof.Defs
import proofs.«151066_j6837587935988_2_alg».proof.Proof.Gen.Kernel
import proofs.«151066_j6837587935988_2_alg».proof.Proof.Gen.Kernel.Skeleton
import proofs.«151066_j6837587935988_2_alg».proof.Proof.Gen.Kernel.Launch
import proofs.«151066_j6837587935988_2_alg».proof.Proof.Gen.Kernel.Points
import proofs.«151066_j6837587935988_2_alg».proof.Proof.Gen.Kernel.Frame
import proofs.«151066_j6837587935988_2_alg».proof.Proof.Gen.KernelIdeal
import proofs.«151066_j6837587935988_2_alg».proof.Proof.Gen.KernelIdeal.Skeleton
import proofs.«151066_j6837587935988_2_alg».proof.Proof.Gen.KernelIdeal.Launch
import proofs.«151066_j6837587935988_2_alg».proof.Proof.Gen.KernelIdeal.Points
import proofs.«151066_j6837587935988_2_alg».proof.Proof.Gen.KernelIdeal.Frame
import proofs.«151066_j6837587935988_2_alg».proof.Proof.Gen.ReferenceIdeal
import proofs.«151066_j6837587935988_2_alg».proof.Proof.Gen.KernelIdeal.Value
import proofs.«151066_j6837587935988_2_alg».proof.Proof.Gen.Pre_finite_inputs
import proofs.«151066_j6837587935988_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
